-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2x64x64x128 : Shape := ⟨4, ![2, 64, 64, 128]⟩
abbrev S2x64x1x128 : Shape := ⟨4, ![2, 64, 1, 128]⟩
abbrev S2x64x128x64 : Shape := ⟨4, ![2, 64, 128, 64]⟩
abbrev S2x64x1x64 : Shape := ⟨4, ![2, 64, 1, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2x64x64x128 : S_.BroadcastsInDim S2x64x64x128 (![] : Fin 0 → Fin S2x64x64x128.rank)
  reducesTo_S2x64x64x128_S_d0_1_2_3 : S2x64x64x128.ReducesTo [0, 1, 2, 3] S_
  bcast_S_S2x64x1x128 : S_.BroadcastsInDim S2x64x1x128 (![] : Fin 0 → Fin S2x64x1x128.rank)
  reducesTo_S2x64x1x128_S_d0_1_2_3 : S2x64x1x128.ReducesTo [0, 1, 2, 3] S_
  bcast_S_S2x64x128x64 : S_.BroadcastsInDim S2x64x128x64 (![] : Fin 0 → Fin S2x64x128x64.rank)
  reducesTo_S2x64x128x64_S_d0_1_2_3 : S2x64x128x64.ReducesTo [0, 1, 2, 3] S_
  bcast_S_S2x64x1x64 : S_.BroadcastsInDim S2x64x1x64 (![] : Fin 0 → Fin S2x64x1x64.rank)
  reducesTo_S2x64x1x64_S_d0_1_2_3 : S2x64x1x64.ReducesTo [0, 1, 2, 3] S_

variable [Facts]

def fn_part1 {F : FTy → Type} [FloatOps F] (main_arg4 : FVec F S2x64x1x64 .f32) (main_v13 : IVec S_ 1) (main_v16 : IVec S2x64x128x64 1) : IVec S_ 1 :=
  let main_c_5 : IVec S_ 1 := constantI S_ 1 1#1
  let main_v17 : IVec S_ 1 := (fun x v => Host.reduce IntOp.andi x v reducesTo_S2x64x128x64_S_d0_1_2_3 h_S_) main_v16 main_c_5
  let main_v18 : IVec S_ 1 := andi main_v13 main_v17
  let main_v19 : FVec F S2x64x1x64 .f32 := Host.absf main_arg4
  let main_cst_6 : FVec F S_ .f32 := constant S_ .f32 0x7F800000#32
  let main_v20 : FVec F S2x64x1x64 .f32 := broadcastInDim S2x64x1x64 ![] bcast_S_S2x64x1x64 main_cst_6
  let main_v21 : IVec S2x64x1x64 1 := cmpf .olt main_v19 main_v20
  let main_c_7 : IVec S_ 1 := constantI S_ 1 1#1
  let main_v22 : IVec S_ 1 := (fun x v => Host.reduce IntOp.andi x v reducesTo_S2x64x1x64_S_d0_1_2_3 h_S_) main_v21 main_c_7
  let main_v23 : IVec S_ 1 := andi main_v18 main_v22
  main_v23

def fn {F : FTy → Type} [FloatOps F] (main_arg0 : FVec F S8192x4096 .f32) (main_arg1 : FVec F S2x64x64x128 .f32) (main_arg2 : FVec F S2x64x1x128 .f32) (main_arg3 : FVec F S2x64x128x64 .f32) (main_arg4 : FVec F S2x64x1x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S2x64x64x128 .f32 := Host.absf main_arg1
  let main_cst_0 : FVec F S_ .f32 := constant S_ .f32 0x7F800000#32
  let main_v5 : FVec F S2x64x64x128 .f32 := broadcastInDim S2x64x64x128 ![] bcast_S_S2x64x64x128 main_cst_0
  let main_v6 : IVec S2x64x64x128 1 := cmpf .olt main_v4 main_v5
  let main_c_1 : IVec S_ 1 := constantI S_ 1 1#1
  let main_v7 : IVec S_ 1 := (fun x v => Host.reduce IntOp.andi x v reducesTo_S2x64x64x128_S_d0_1_2_3 h_S_) main_v6 main_c_1
  let main_v8 : IVec S_ 1 := andi main_v3 main_v7
  let main_v9 : FVec F S2x64x1x128 .f32 := Host.absf main_arg2
  let main_cst_2 : FVec F S_ .f32 := constant S_ .f32 0x7F800000#32
  let main_v10 : FVec F S2x64x1x128 .f32 := broadcastInDim S2x64x1x128 ![] bcast_S_S2x64x1x128 main_cst_2
  let main_v11 : IVec S2x64x1x128 1 := cmpf .olt main_v9 main_v10
  let main_c_3 : IVec S_ 1 := constantI S_ 1 1#1
  let main_v12 : IVec S_ 1 := (fun x v => Host.reduce IntOp.andi x v reducesTo_S2x64x1x128_S_d0_1_2_3 h_S_) main_v11 main_c_3
  let main_v13 : IVec S_ 1 := andi main_v8 main_v12
  let main_v14 : FVec F S2x64x128x64 .f32 := Host.absf main_arg3
  let main_cst_4 : FVec F S_ .f32 := constant S_ .f32 0x7F800000#32
  let main_v15 : FVec F S2x64x128x64 .f32 := broadcastInDim S2x64x128x64 ![] bcast_S_S2x64x128x64 main_cst_4
  let main_v16 : IVec S2x64x128x64 1 := cmpf .olt main_v14 main_v15
  fn_part1 (F := F) main_arg4 main_v13 main_v16
-- ==== Kernel.lean ====
abbrev S8192x4096 : Shape := ⟨2, ![8192, 4096]⟩
abbrev S2x64x64x128 : Shape := ⟨4, ![2, 64, 64, 128]⟩
abbrev S2x64x1x128 : Shape := ⟨4, ![2, 64, 1, 128]⟩
abbrev S2x64x128x64 : Shape := ⟨4, ![2, 64, 128, 64]⟩
abbrev S2x64x1x64 : Shape := ⟨4, ![2, 64, 1, 64]⟩
abbrev S128x4096 : Shape := ⟨2, ![128, 4096]⟩
abbrev S128x64x64 : Shape := ⟨3, ![128, 64, 64]⟩
abbrev S64x128x64 : Shape := ⟨3, ![64, 128, 64]⟩
abbrev S1x64x64x128 : Shape := ⟨4, ![1, 64, 64, 128]⟩
abbrev S64x64x128 : Shape := ⟨3, ![64, 64, 128]⟩
abbrev S1x64x1x128 : Shape := ⟨4, ![1, 64, 1, 128]⟩
abbrev S64x1x128 : Shape := ⟨3, ![64, 1, 128]⟩
abbrev S1x64x1x64 : Shape := ⟨4, ![1, 64, 1, 64]⟩
abbrev S64x1x64 : Shape := ⟨3, ![64, 1, 64]⟩
abbrev S64x128x128 : Shape := ⟨3, ![64, 128, 128]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S2x64x64x128, .f32⟩
  | .hbm, ⟨2, _⟩ => ⟨S2x64x1x128, .f32⟩
  | .hbm, ⟨3, _⟩ => ⟨S2x64x128x64, .f32⟩
  | .hbm, ⟨4, _⟩ => ⟨S2x64x1x64, .f32⟩
  | .hbm, ⟨5, _⟩ => ⟨S2x64x64x128, .bf16⟩
  | .hbm, ⟨6, _⟩ => ⟨S2x64x64x128, .f32⟩
  | .hbm, ⟨7, _⟩ => ⟨S2x64x64x128, .bf16⟩
  | .hbm, ⟨8, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S2x64x64x128, .bf16⟩
  | .local _ .vmem, ⟨3, _⟩ => ⟨S2x64x1x128, .f32⟩
  | .local _ .vmem, ⟨4, _⟩ => ⟨S2x64x64x128, .bf16⟩
  | .local _ .vmem, ⟨5, _⟩ => ⟨S2x64x1x64, .f32⟩
  | .local _ .vmem, ⟨6, _⟩ => ⟨S128x4096, .f32⟩
  | .local _ .vmem, ⟨7, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S2x64x128x64_S2x64x64x128_0_1_3_2 : S2x64x128x64.Transposes [0, 1, 3, 2] S2x64x64x128
  inb_S128x4096_S128x4096_0_0 : ∀ a, (![0, 0] : Fin 2 → Nat) a + S128x4096.size a ≤ S128x4096.size a
  h_S128x4096 : 0 < S128x4096.numel
  shapeCasts_S128x4096_S128x64x64 : S128x4096.ShapeCasts S128x64x64
  transposes_S128x64x64_p1_0_2_S64x128x64 : S128x64x64.Transposes [1, 0, 2] S64x128x64
  inb_S2x64x64x128_S1x64x64x128_0_0_0_0 : ∀ a, (![0, 0, 0, 0] : Fin 4 → Nat) a + S1x64x64x128.size a ≤ S2x64x64x128.size a
  h_S1x64x64x128 : 0 < S1x64x64x128.numel
  shapeCasts_S1x64x64x128_S64x64x128 : S1x64x64x128.ShapeCasts S64x64x128
  inb_S2x64x1x128_S1x64x1x128_0_0_0_0 : ∀ a, (![0, 0, 0, 0] : Fin 4 → Nat) a + S1x64x1x128.size a ≤ S2x64x1x128.size a
  h_S1x64x1x128 : 0 < S1x64x1x128.numel
  shapeCasts_S1x64x1x128_S64x1x128 : S1x64x1x128.ShapeCasts S64x1x128
  inb_S2x64x1x64_S1x64x1x64_0_0_0_0 : ∀ a, (![0, 0, 0, 0] : Fin 4 → Nat) a + S1x64x1x64.size a ≤ S2x64x1x64.size a
  h_S1x64x1x64 : 0 < S1x64x1x64.numel
  shapeCasts_S1x64x1x64_S64x1x64 : S1x64x1x64.ShapeCasts S64x1x64
  broadcasts_S64x1x128_S64x128x128 : S64x1x128.Broadcasts S64x128x128
  broadcasts_S64x1x64_S64x128x64 : S64x1x64.Broadcasts S64x128x64
  transposes_S64x128x64_p2_1_0_S64x128x64 : S64x128x64.Transposes [2, 1, 0] S64x128x64
  inb_S2x64x64x128_S1x64x64x128_1_0_0_0 : ∀ a, (![1, 0, 0, 0] : Fin 4 → Nat) a + S1x64x64x128.size a ≤ S2x64x64x128.size a
  inb_S2x64x1x128_S1x64x1x128_1_0_0_0 : ∀ a, (![1, 0, 0, 0] : Fin 4 → Nat) a + S1x64x1x128.size a ≤ S2x64x1x128.size a
  inb_S2x64x1x64_S1x64x1x64_1_0_0_0 : ∀ a, (![1, 0, 0, 0] : Fin 4 → Nat) a + S1x64x1x64.size a ≤ S2x64x1x64.size a
  transposes_S64x128x64_p1_2_0_S128x64x64 : S64x128x64.Transposes [1, 2, 0] S128x64x64
  shapeCasts_S128x64x64_S128x4096 : S128x64x64.ShapeCasts S128x4096
  dot_S64x128x64_S64x64x128_S64x128x128_2_1_1_2_0_0_wf : DotDims.WF S64x128x64 S64x64x128 S64x128x128 [2] [1] [1] [2] [0] [0]
  dot_S64x128x128_S64x64x128_S64x128x64_2_2_1_1_0_0_wf : DotDims.WF S64x128x128 S64x64x128 S64x128x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64x64x128.size a ≤ S2x64x64x128.size a
  hwx0_1 : ∀ i : grid0.Coords, EltTy.bits .bf16 = 32 ∨ (Rect.block (s := S2x64x64x128) S2x64x64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64x1x128.size a ≤ S2x64x1x128.size a
  hwx0_2 : ∀ i : grid0.Coords, EltTy.bits .f32 = 32 ∨ (Rect.block (s := S2x64x1x128) S2x64x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64x64x128.size a ≤ S2x64x64x128.size a
  hwx0_3 : ∀ i : grid0.Coords, EltTy.bits .bf16 = 32 ∨ (Rect.block (s := S2x64x64x128) S2x64x64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64x1x64.size a ≤ S2x64x1x64.size a
  hwx0_4 : ∀ i : grid0.Coords, EltTy.bits .f32 = 32 ∨ (Rect.block (s := S2x64x1x64) S2x64x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

def dot_S64x128x64_S64x64x128_S64x128x128_2_1_1_2_0_0 : DotDims S64x128x64 S64x64x128 S64x128x128 where
  lhsContracting := [2]
  rhsContracting := [1]
  lhsNonContracting := [1]
  rhsNonContracting := [2]
  lhsBatch := [0]
  rhsBatch := [0]
  wf := dot_S64x128x64_S64x64x128_S64x128x128_2_1_1_2_0_0_wf
def dot_S64x128x128_S64x64x128_S64x128x64_2_2_1_1_0_0 : DotDims S64x128x128 S64x64x128 S64x128x64 where
  lhsContracting := [2]
  rhsContracting := [2]
  lhsNonContracting := [1]
  rhsNonContracting := [1]
  lhsBatch := [0]
  rhsBatch := [0]
  wf := dot_S64x128x128_S64x64x128_S64x128x64_2_2_1_1_0_0_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x64x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x64x1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x64x64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x64x1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S2x64x64x128 : Shape := ⟨4, ![2, 64, 64, 128]⟩
abbrev S2x64x1x128 : Shape := ⟨4, ![2, 64, 1, 128]⟩
abbrev S2x64x128x64 : Shape := ⟨4, ![2, 64, 128, 64]⟩
abbrev S2x64x1x64 : Shape := ⟨4, ![2, 64, 1, 64]⟩
abbrev S524288x64x1 : Shape := ⟨3, ![524288, 64, 1]⟩
abbrev S524288x1x64 : Shape := ⟨3, ![524288, 1, 64]⟩
abbrev S1x64x64x128 : Shape := ⟨4, ![1, 64, 64, 128]⟩
abbrev S64x64x128 : Shape := ⟨3, ![64, 64, 128]⟩
abbrev S1x64x1x128 : Shape := ⟨4, ![1, 64, 1, 128]⟩
abbrev S64x1x128 : Shape := ⟨3, ![64, 1, 128]⟩
abbrev S1x64x128x64 : Shape := ⟨4, ![1, 64, 128, 64]⟩
abbrev S64x128x64 : Shape := ⟨3, ![64, 128, 64]⟩
abbrev S1x64x1x64 : Shape := ⟨4, ![1, 64, 1, 64]⟩
abbrev S64x1x64 : Shape := ⟨3, ![64, 1, 64]⟩
abbrev S8192x64x64 : Shape := ⟨3, ![8192, 64, 64]⟩
abbrev S64x8192x64 : Shape := ⟨3, ![64, 8192, 64]⟩
abbrev S64x8192x128 : Shape := ⟨3, ![64, 8192, 128]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x64x64x128, .f32⟩
  | .hbm, ⟨2, _⟩ => ⟨S2x64x1x128, .f32⟩
  | .hbm, ⟨3, _⟩ => ⟨S2x64x128x64, .f32⟩
  | .hbm, ⟨4, _⟩ => ⟨S2x64x1x64, .f32⟩
  | .hbm, ⟨5, _⟩ => ⟨S524288x64x1, .f32⟩
  | .hbm, ⟨6, _⟩ => ⟨S524288x1x64, .f32⟩
  | .hbm, ⟨7, _⟩ => ⟨S8192x4096, .f32⟩
  | .hbm, ⟨8, _⟩ => ⟨S1x64x64x128, .f32⟩
  | .hbm, ⟨9, _⟩ => ⟨S64x64x128, .f32⟩
  | .hbm, ⟨10, _⟩ => ⟨S1x64x1x128, .f32⟩
  | .hbm, ⟨11, _⟩ => ⟨S64x1x128, .f32⟩
  | .hbm, ⟨12, _⟩ => ⟨S1x64x128x64, .f32⟩
  | .hbm, ⟨13, _⟩ => ⟨S64x128x64, .f32⟩
  | .hbm, ⟨14, _⟩ => ⟨S1x64x1x64, .f32⟩
  | .hbm, ⟨15, _⟩ => ⟨S64x1x64, .f32⟩
  | .hbm, ⟨16, _⟩ => ⟨S8192x64x64, .f32⟩
  | .hbm, ⟨17, _⟩ => ⟨S64x8192x64, .f32⟩
  | .hbm, ⟨18, _⟩ => ⟨S64x8192x128, .f32⟩
  | .hbm, ⟨19, _⟩ => ⟨S64x8192x128, .f32⟩
  | .hbm, ⟨20, _⟩ => ⟨S64x8192x128, .f32⟩
  | .hbm, ⟨21, _⟩ => ⟨S_, .f32⟩
  | .hbm, ⟨22, _⟩ => ⟨S64x8192x128, .f32⟩
  | .hbm, ⟨23, _⟩ => ⟨S64x8192x128, .i1⟩
  | .hbm, ⟨24, _⟩ => ⟨S_, .f32⟩
  | .hbm, ⟨25, _⟩ => ⟨S64x8192x128, .f32⟩
  | .hbm, ⟨26, _⟩ => ⟨S64x8192x128, .i1⟩
  | .hbm, ⟨27, _⟩ => ⟨S_, .f32⟩
  | .hbm, ⟨28, _⟩ => ⟨S_, .f32⟩
  | .hbm, ⟨29, _⟩ => ⟨S64x8192x128, .f32⟩
  | .hbm, ⟨30, _⟩ => ⟨S64x8192x128, .f32⟩
  | .hbm, ⟨31, _⟩ => ⟨S64x8192x128, .f32⟩
  | .hbm, ⟨32, _⟩ => ⟨S_, .f32⟩
  | .hbm, ⟨33, _⟩ => ⟨S64x8192x128, .f32⟩
  | .hbm, ⟨34, _⟩ => ⟨S64x8192x128, .f32⟩
  | .hbm, ⟨35, _⟩ => ⟨S64x8192x128, .f32⟩
  | .hbm, ⟨36, _⟩ => ⟨S64x8192x64, .f32⟩
  | .hbm, ⟨37, _⟩ => ⟨S64x8192x64, .f32⟩
  | .hbm, ⟨38, _⟩ => ⟨S64x8192x64, .f32⟩
  | .hbm, ⟨39, _⟩ => ⟨S64x8192x64, .f32⟩
  | .hbm, ⟨40, _⟩ => ⟨S8192x64x64, .f32⟩
  | .hbm, ⟨41, _⟩ => ⟨S8192x4096, .f32⟩
  | .hbm, ⟨42, _⟩ => ⟨S524288x1x64, .f32⟩
  | .hbm, ⟨43, _⟩ => ⟨S524288x64x1, .f32⟩
  | .hbm, ⟨44, _⟩ => ⟨S8192x4096, .f32⟩
  | .hbm, ⟨45, _⟩ => ⟨S8192x64x64, .f32⟩
  | .hbm, ⟨46, _⟩ => ⟨S8192x64x64, .f32⟩
  | .hbm, ⟨47, _⟩ => ⟨S8192x4096, .f32⟩
  | .hbm, ⟨48, _⟩ => ⟨S1x64x64x128, .f32⟩
  | .hbm, ⟨49, _⟩ => ⟨S64x64x128, .f32⟩
  | .hbm, ⟨50, _⟩ => ⟨S1x64x1x128, .f32⟩
  | .hbm, ⟨51, _⟩ => ⟨S64x1x128, .f32⟩
  | .hbm, ⟨52, _⟩ => ⟨S1x64x128x64, .f32⟩
  | .hbm, ⟨53, _⟩ => ⟨S64x128x64, .f32⟩
  | .hbm, ⟨54, _⟩ => ⟨S1x64x1x64, .f32⟩
  | .hbm, ⟨55, _⟩ => ⟨S64x1x64, .f32⟩
  | .hbm, ⟨56, _⟩ => ⟨S8192x64x64, .f32⟩
  | .hbm, ⟨57, _⟩ => ⟨S64x8192x64, .f32⟩
  | .hbm, ⟨58, _⟩ => ⟨S64x8192x128, .f32⟩
  | .hbm, ⟨59, _⟩ => ⟨S64x8192x128, .f32⟩
  | .hbm, ⟨60, _⟩ => ⟨S64x8192x128, .f32⟩
  | .hbm, ⟨61, _⟩ => ⟨S_, .f32⟩
  | .hbm, ⟨62, _⟩ => ⟨S64x8192x128, .f32⟩
  | .hbm, ⟨63, _⟩ => ⟨S64x8192x128, .i1⟩
  | .hbm, ⟨64, _⟩ => ⟨S_, .f32⟩
  | .hbm, ⟨65, _⟩ => ⟨S64x8192x128, .f32⟩
  | .hbm, ⟨66, _⟩ => ⟨S64x8192x128, .i1⟩
  | .hbm, ⟨67, _⟩ => ⟨S_, .f32⟩
  | .hbm, ⟨68, _⟩ => ⟨S_, .f32⟩
  | .hbm, ⟨69, _⟩ => ⟨S64x8192x128, .f32⟩
  | .hbm, ⟨70, _⟩ => ⟨S64x8192x128, .f32⟩
  | .hbm, ⟨71, _⟩ => ⟨S64x8192x128, .f32⟩
  | .hbm, ⟨72, _⟩ => ⟨S_, .f32⟩
  | .hbm, ⟨73, _⟩ => ⟨S64x8192x128, .f32⟩
  | .hbm, ⟨74, _⟩ => ⟨S64x8192x128, .f32⟩
  | .hbm, ⟨75, _⟩ => ⟨S64x8192x128, .f32⟩
  | .hbm, ⟨76, _⟩ => ⟨S64x8192x64, .f32⟩
  | .hbm, ⟨77, _⟩ => ⟨S64x8192x64, .f32⟩
  | .hbm, ⟨78, _⟩ => ⟨S64x8192x64, .f32⟩
  | .hbm, ⟨79, _⟩ => ⟨S64x8192x64, .f32⟩
  | .hbm, ⟨80, _⟩ => ⟨S8192x64x64, .f32⟩
  | .hbm, ⟨81, _⟩ => ⟨S8192x4096, .f32⟩
  | .hbm, ⟨82, _⟩ => ⟨S8192x64x64, .f32⟩
  | .hbm, ⟨83, _⟩ => ⟨S8192x64x64, .f32⟩
  | .hbm, ⟨84, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_cst_1 : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_v4 : Ref sig .tc := ⟨.hbm, 30, rfl⟩
abbrev main_call0_v5 : Ref sig .tc := ⟨.hbm, 31, rfl⟩
abbrev main_call0_cst_2 : Ref sig .tc := ⟨.hbm, 32, rfl⟩
abbrev main_call0_v6 : Ref sig .tc := ⟨.hbm, 33, rfl⟩
abbrev main_call0_v7 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_cst_0 : Ref sig .tc := ⟨.hbm, 64, rfl⟩
abbrev main_call1_v2 : Ref sig .tc := ⟨.hbm, 65, rfl⟩
abbrev main_call1_v3 : Ref sig .tc := ⟨.hbm, 66, rfl⟩
abbrev main_call1_cst_1 : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_v4 : Ref sig .tc := ⟨.hbm, 70, rfl⟩
abbrev main_call1_v5 : Ref sig .tc := ⟨.hbm, 71, rfl⟩
abbrev main_call1_cst_2 : Ref sig .tc := ⟨.hbm, 72, rfl⟩
abbrev main_call1_v6 : Ref sig .tc := ⟨.hbm, 73, rfl⟩
abbrev main_call1_v7 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  shapeCasts_S8192x4096_S524288x64x1 : S8192x4096.ShapeCasts S524288x64x1
  transposes_S524288x64x1_S524288x1x64_0_2_1 : S524288x64x1.Transposes [0, 2, 1] S524288x1x64
  shapeCasts_S524288x1x64_S8192x4096 : S524288x1x64.ShapeCasts S8192x4096
  slices_S2x64x64x128_S1x64x64x128_0_0_0_0 : S2x64x64x128.Slices ![0, 0, 0, 0] S1x64x64x128
  shapeCasts_S1x64x64x128_S64x64x128 : S1x64x64x128.ShapeCasts S64x64x128
  slices_S2x64x1x128_S1x64x1x128_0_0_0_0 : S2x64x1x128.Slices ![0, 0, 0, 0] S1x64x1x128
  shapeCasts_S1x64x1x128_S64x1x128 : S1x64x1x128.ShapeCasts S64x1x128
  slices_S2x64x128x64_S1x64x128x64_0_0_0_0 : S2x64x128x64.Slices ![0, 0, 0, 0] S1x64x128x64
  shapeCasts_S1x64x128x64_S64x128x64 : S1x64x128x64.ShapeCasts S64x128x64
  slices_S2x64x1x64_S1x64x1x64_0_0_0_0 : S2x64x1x64.Slices ![0, 0, 0, 0] S1x64x1x64
  shapeCasts_S1x64x1x64_S64x1x64 : S1x64x1x64.ShapeCasts S64x1x64
  shapeCasts_S8192x4096_S8192x64x64 : S8192x4096.ShapeCasts S8192x64x64
  transposes_S8192x64x64_S64x8192x64_1_0_2 : S8192x64x64.Transposes [1, 0, 2] S64x8192x64
  bcast_S64x1x128_S64x8192x128_0_1_2 : S64x1x128.BroadcastsInDim S64x8192x128 (![0, 1, 2] : Fin 3 → Fin S64x8192x128.rank)
  bcast_S_S64x8192x128 : S_.BroadcastsInDim S64x8192x128 (![] : Fin 0 → Fin S64x8192x128.rank)
  bcast_S64x1x64_S64x8192x64_0_1_2 : S64x1x64.BroadcastsInDim S64x8192x64 (![0, 1, 2] : Fin 3 → Fin S64x8192x64.rank)
  transposes_S64x8192x64_S8192x64x64_1_0_2 : S64x8192x64.Transposes [1, 0, 2] S8192x64x64
  shapeCasts_S8192x64x64_S8192x4096 : S8192x64x64.ShapeCasts S8192x4096
  shapeCasts_S8192x4096_S524288x1x64 : S8192x4096.ShapeCasts S524288x1x64
  transposes_S524288x1x64_S524288x64x1_0_2_1 : S524288x1x64.Transposes [0, 2, 1] S524288x64x1
  shapeCasts_S524288x64x1_S8192x4096 : S524288x64x1.ShapeCasts S8192x4096
  transposes_S8192x64x64_S8192x64x64_0_2_1 : S8192x64x64.Transposes [0, 2, 1] S8192x64x64
  slices_S2x64x64x128_S1x64x64x128_1_0_0_0 : S2x64x64x128.Slices ![1, 0, 0, 0] S1x64x64x128
  slices_S2x64x1x128_S1x64x1x128_1_0_0_0 : S2x64x1x128.Slices ![1, 0, 0, 0] S1x64x1x128
  slices_S2x64x128x64_S1x64x128x64_1_0_0_0 : S2x64x128x64.Slices ![1, 0, 0, 0] S1x64x128x64
  slices_S2x64x1x64_S1x64x1x64_1_0_0_0 : S2x64x1x64.Slices ![1, 0, 0, 0] S1x64x1x64
  dot_S64x8192x64_S64x64x128_S64x8192x128_2_1_1_2_0_0_wf : DotDims.WF S64x8192x64 S64x64x128 S64x8192x128 [2] [1] [1] [2] [0] [0]
  dot_S64x8192x128_S64x128x64_S64x8192x64_2_1_1_2_0_0_wf : DotDims.WF S64x8192x128 S64x128x64 S64x8192x64 [2] [1] [1] [2] [0] [0]

variable [Facts₀]

def dot_S64x8192x64_S64x64x128_S64x8192x128_2_1_1_2_0_0 : DotDims S64x8192x64 S64x64x128 S64x8192x128 where
  lhsContracting := [2]
  rhsContracting := [1]
  lhsNonContracting := [1]
  rhsNonContracting := [2]
  lhsBatch := [0]
  rhsBatch := [0]
  wf := dot_S64x8192x64_S64x64x128_S64x8192x128_2_1_1_2_0_0_wf
def dot_S64x8192x128_S64x128x64_S64x8192x64_2_1_1_2_0_0 : DotDims S64x8192x128 S64x128x64 S64x8192x64 where
  lhsContracting := [2]
  rhsContracting := [1]
  lhsNonContracting := [1]
  rhsNonContracting := [2]
  lhsBatch := [0]
  rhsBatch := [0]
  wf := dot_S64x8192x128_S64x128x64_S64x8192x64_2_1_1_2_0_0_wf

class Facts : Prop extends Facts₀ where

variable [Facts]
-- ==== Proof.Spec.lean ====
/-
  The mathematics both programs compute, stated once, over the extended reals.

  A row of the input, 4096 numbers, is read as a 64 × 64 matrix `z n d = row (64·n + d)`: 64 blocks of 64 features.
  One LAYER sends `z` to `z'`, block by block: with block `n`'s own weights (a 64 × 128 matrix `w1 n`, a bias `b1 n`, a
  128 × 64 matrix `w2 n`, a bias `b2 n`),
      h n e  = (∑ k, z n k · w1 n k e) + b1 n e,
      z' n d = ((∑ e, elu (h n e) · w2 n e d) + b2 n d) + z n d,
  where `elu h` is `h` above zero and `exp h − 1` elsewhere. The whole function applies layer 0 to the row's matrix,
  TRANSPOSES the result (block index and feature index change places), applies layer 1, and writes entry `(n, d)` of that
  at column `64·d + n` of the output row — the transposition undone. Rows do not interact.
-/
import Idealize.ShloMosaic.PureOps.Ideal
import Idealize.ShloMosaic.PureOps.Ideal.Laws
import Idealize.ShloMosaic.PureOps.IdealRules
import Idealize.ShloMosaic.Lib.ValueIdx

noncomputable section

namespace Cert.BlockMlp

open Idealize.ShloMosaic Idealize.ShloMosaic.ValueIdx

/-! ## The activation -/

/-- ELU with unit slope on the extended reals: the identity above zero, `exp h − 1` at and below it
    (`exp ⊥ = 0`, so `elu ⊥ = −1`). -/
def elu (h : EReal) : EReal := if 0 < h then h else Ideal.exp h - 1

/-- The pattern of `1.0` denotes the extended real one. -/
theorem ofBits_one_f32 : Ideal.ofBits .f32 0x3F800000#32 = 1 := IdealRules.sign_bit.ideal_onePat .f32

/-- One spelling of `elu`: the exponential taken of `min h 0`, which is `h` wherever the second branch is chosen. -/
theorem elu_of_min (h : EReal) :
    Scalar.select (Ideal.cmp .ogt h (Ideal.ofBits .f32 0x00000000#32)) h
      (Ideal.exp (min h (Ideal.ofBits .f32 0x00000000#32)) - Ideal.ofBits .f32 0x3F800000#32) = elu h := by
  rw [Ideal.ofBits_zero_f32, ofBits_one_f32]
  unfold elu Scalar.select Ideal.cmp
  by_cases hp : 0 < h
  · simp [hp]
  · simp [hp, min_eq_left (not_lt.mp hp)]

/-- The other spelling: `exp · − 1` taken of `h` with the positive entries replaced by zero, then scaled by one. -/
theorem elu_of_expm1 (h : EReal) :
    Scalar.select (Ideal.cmp .ogt h (Ideal.ofBits .f32 0x00000000#32)) h
      (Ideal.ofBits .f32 0x3F800000#32 *
        (Ideal.exp (Scalar.select (Ideal.cmp .ogt h (Ideal.ofBits .f32 0x00000000#32)) (Ideal.ofBits .f32 0x00000000#32) h) - 1))
      = elu h := by
  rw [Ideal.ofBits_zero_f32, ofBits_one_f32]
  unfold elu Scalar.select Ideal.cmp
  by_cases hp : 0 < h
  · simp [hp]
  · simp [hp]

/-! ## One layer on one row -/

/-- One layer on a row's 64 × 64 matrix `z`: entry `(n, d)` of the result. -/
def layer (w1 : Fin 64 → Fin 64 → Fin 128 → EReal) (b1 : Fin 64 → Fin 128 → EReal)
    (w2 : Fin 64 → Fin 128 → Fin 64 → EReal) (b2 : Fin 64 → Fin 64 → EReal)
    (z : Fin 64 → Fin 64 → EReal) (n d : Fin 64) : EReal :=
  ((∑ e : Fin 128, elu ((∑ k : Fin 64, z n k * w1 n k e) + b1 n e) * w2 n e d) + b2 n d) + z n d

/-! ## The whole function -/

abbrev SX : Shape := ⟨2, ![8192, 4096]⟩
abbrev SW1 : Shape := ⟨4, ![2, 64, 64, 128]⟩
abbrev SB1 : Shape := ⟨4, ![2, 64, 1, 128]⟩
abbrev SW2 : Shape := ⟨4, ![2, 64, 128, 64]⟩
abbrev SB2 : Shape := ⟨4, ![2, 64, 1, 64]⟩

/-- Column `64·n + d` of a row: feature `d` of block `n`. -/
def col (n d : Fin 64) : Fin 4096 := ⟨64 * n.val + d.val, by omega⟩

@[simp] theorem col_val (n d : Fin 64) : (col n d).val = 64 * n.val + d.val := rfl

/-- Layer `l` (of the two) with its weights read off the argument arrays. -/
def layerOf (w1 : FVec Ideal SW1 .f32) (b1 : FVec Ideal SB1 .f32) (w2 : FVec Ideal SW2 .f32) (b2 : FVec Ideal SB2 .f32)
    (l : Fin 2) : (Fin 64 → Fin 64 → EReal) → Fin 64 → Fin 64 → EReal :=
  layer (fun n k e => w1 (ix4 l n k e)) (fun n e => b1 (ix4 l n 0 e)) (fun n e d => w2 (ix4 l n e d))
    (fun n d => b2 (ix4 l n 0 d))

/-- The result at row `b`, column `j`: layer 1 of the transposed layer 0 of the row, read at block `j mod 64`,
    feature `j / 64`. -/
def Grow (x : FVec Ideal SX .f32) (w1 : FVec Ideal SW1 .f32) (b1 : FVec Ideal SB1 .f32) (w2 : FVec Ideal SW2 .f32)
    (b2 : FVec Ideal SB2 .f32) (b : Fin 8192) (j : Fin 4096) : EReal :=
  layerOf w1 b1 w2 b2 1 (fun n1 d1 => layerOf w1 b1 w2 b2 0 (fun n d => x (ix2 b (col n d))) d1 n1)
    ⟨j.val % 64, by omega⟩ ⟨j.val / 64, by omega⟩

/-- The result array as ONE function of the five argument arrays. -/
def G (x : FVec Ideal SX .f32) (w1 : FVec Ideal SW1 .f32) (b1 : FVec Ideal SB1 .f32) (w2 : FVec Ideal SW2 .f32)
    (b2 : FVec Ideal SB2 .f32) : FVec Ideal SX .f32 :=
  fun i => Grow x w1 b1 w2 b2 (i 0) (i 1)

theorem G_ix2 (x : FVec Ideal SX .f32) (w1 : FVec Ideal SW1 .f32) (b1 : FVec Ideal SB1 .f32) (w2 : FVec Ideal SW2 .f32)
    (b2 : FVec Ideal SB2 .f32) (b : Fin 8192) (j : Fin 4096) :
    G x w1 b1 w2 b2 (ix2 b j) = Grow x w1 b1 w2 b2 b j := rfl

end Cert.BlockMlp

end
-- ==== Proof.KLayer.lean ====
/-
  One layer of the kernel on a tile of 128 rows, in the blocks-first form `[block, row, feature]`, and what it holds at an
  entry. The kernel's body is this layer twice: first on the tile's rows cut into 64 blocks of 64, the result transposed
  (block index and feature index change places); then on that, the result written back with the transposition undone.
  At the ideal values the roundings to sixteen bits on the way into each matrix product are the identity, a matrix product
  into a zero accumulator is the plain sum of products over the contracted axis, and the activation
  `select (h > 0) h (exp (min h 0) − 1)` is `elu h`.
-/
import proofs.«106645_j47888885350878_2_alg».proof.Proof.Gen.KernelIdeal.Skeleton
import proofs.«106645_j47888885350878_2_alg».proof.Proof.Spec
import Idealize.ShloMosaic.Lib.ValueIdx
import Idealize.ShloMosaic.Lib.Pipeline.Value
import Idealize.ShloMosaic.PureOps.Ideal.Laws

noncomputable section

namespace Cert.KernelIdeal.KLayer

open Cert.KernelIdeal Cert.KernelIdeal.Gen Idealize.ShloMosaic Idealize.ShloMosaic.ValueIdx

variable {F : FTy → Type} [FloatOps F]

/-- The activation as the kernel spells it: the entry itself where it is above zero, `exp (min h 0) − 1` elsewhere. -/
def kElu (h : FVec F S64x128x128 .f32) : FVec F S64x128x128 .f32 :=
  select (cmpf .ogt h (broadcast S64x128x128 (Scalar.ofBits .f32 0x00000000#32))) h
    (subf (exp (minimumf h (broadcast S64x128x128 (Scalar.ofBits .f32 0x00000000#32))))
      (broadcast S64x128x128 (Scalar.ofBits .f32 0x3F800000#32)))

/-- One layer: `z` times the first weights (per block), plus the first bias, through the activation, times the second
    weights (held transposed: `[block, feature, hidden]`), plus the second bias, plus `z`. -/
def kLayer (z : FVec F S64x128x64 .f32) (w1 : FVec F S64x64x128 .bf16) (b1 : FVec F S64x1x128 .f32)
    (w2t : FVec F S64x64x128 .bf16) (b2 : FVec F S64x1x64 .f32) : FVec F S64x128x64 .f32 :=
  addf (addf
    (matmul dot_S64x128x128_S64x64x128_S64x128x64_2_2_1_1_0_0 none
      (truncf .bf16 (kElu (addf
        (matmul dot_S64x128x64_S64x64x128_S64x128x128_2_1_1_2_0_0 none (truncf .bf16 z bitsLt_bf16_f32) w1
          (constant S64x128x128 .f32 0x00000000#32))
        (broadcastTo S64x128x128 b1 broadcasts_S64x1x128_S64x128x128))) bitsLt_bf16_f32)
      w2t (constant S64x128x64 .f32 0x00000000#32))
    (broadcastTo S64x128x64 b2 broadcasts_S64x1x64_S64x128x64)) z

/-- The first half of the body: layer 0 on the tile's rows in blocks-first form, transposed end to end. -/
theorem pay2_eq (v0 : Vec F S128x4096 .f32) (v3 : Vec F S1x64x64x128 .bf16) (v5 : Vec F S1x64x1x128 .f32)
    (v7 : Vec F S1x64x64x128 .bf16) (v9 : Vec F S1x64x1x64 .f32) :
    k0_pay2 v0 v3 v5 v7 v9
      = transpose S64x128x64 [2, 1, 0]
          (kLayer (transpose S64x128x64 [1, 0, 2] (shapeCast S128x64x64 v0 shapeCasts_S128x4096_S128x64x64) transposes_S128x64x64_p1_0_2_S64x128x64)
            (shapeCast S64x64x128 v3 shapeCasts_S1x64x64x128_S64x64x128) (shapeCast S64x1x128 v5 shapeCasts_S1x64x1x128_S64x1x128)
            (shapeCast S64x64x128 v7 shapeCasts_S1x64x64x128_S64x64x128) (shapeCast S64x1x64 v9 shapeCasts_S1x64x1x64_S64x1x64))
          transposes_S64x128x64_p2_1_0_S64x128x64 := rfl

/-- The second half: layer 1 on that, brought back to rows. -/
theorem pay1_eq (v28 : FVec F S64x128x64 .f32) (v30 : FVec F S64x64x128 .bf16) (v31 : Vec F S1x64x1x128 .f32)
    (v33 : Vec F S1x64x64x128 .bf16) (v35 : Vec F S1x64x1x64 .f32) :
    k0_pay1 v28 v30 v31 v33 v35
      = shapeCast S128x4096
          (transpose S128x64x64 [1, 2, 0]
            (kLayer v28 v30 (shapeCast S64x1x128 v31 shapeCasts_S1x64x1x128_S64x1x128)
              (shapeCast S64x64x128 v33 shapeCasts_S1x64x64x128_S64x64x128) (shapeCast S64x1x64 v35 shapeCasts_S1x64x1x64_S64x1x64))
            transposes_S64x128x64_p1_2_0_S128x64x64)
          shapeCasts_S128x64x64_S128x4096 := rfl

theorem pay3_eq (v29 : Vec F S1x64x64x128 .bf16) :
    k0_pay3 v29 = shapeCast S64x64x128 v29 shapeCasts_S1x64x64x128_S64x64x128 := rfl

/-! ## At the ideal values, at an entry -/

/-- The activation at an entry is `elu` of the entry. -/
theorem kElu_apply (h : FVec Ideal S64x128x128 .f32) (j : S64x128x128.Idx) :
    kElu (F := Ideal) h j = Cert.BlockMlp.elu (h j) :=
  Cert.BlockMlp.elu_of_min (h j)

/-- The first matrix product, block `n`, row `b`, hidden unit `e`: the sum over the block's 64 features. -/
theorem mm1_apply (z : FVec Ideal S64x128x64 .bf16) (w1 : FVec Ideal S64x64x128 .bf16) (n : Fin 64) (b : Fin 128) (e : Fin 128) :
    matmul dot_S64x128x64_S64x64x128_S64x128x128_2_1_1_2_0_0 none z w1 (constant S64x128x128 .f32 0x00000000#32) (ix3 n b e)
      = ∑ k : Fin 64, z (ix3 n b k) * w1 (ix3 n k e) := by
  refine (Ideal.matmul_constant_zero_apply _ none z w1 (ix3 n b e)).trans ?_
  refine ((contrEquiv1 dot_S64x128x64_S64x64x128_S64x128x128_2_1_1_2_0_0 64 rfl rfl).symm.sum_comp _).symm.trans ?_
  refine Finset.sum_congr rfl fun k _ => ?_
  congr 1
  · refine congrArg z (funext fun a => Fin.ext ?_)
    match a with
    | ⟨0, _⟩ => rfl
    | ⟨1, _⟩ => rfl
    | ⟨2, _⟩ => exact (DotDims.lhsIdx_val_of_single _ rfl _ _).trans (contrEquiv1_symm_val _ 64 rfl rfl k)
  · refine congrArg w1 (funext fun a => Fin.ext ?_)
    match a with
    | ⟨0, _⟩ => rfl
    | ⟨1, _⟩ => exact (DotDims.rhsIdx_val_of_single _ rfl _ _).trans (contrEquiv1_symm_val _ 64 rfl rfl k)
    | ⟨2, _⟩ => rfl

/-- The second matrix product, against the weights held transposed: the sum over the 128 hidden units. -/
theorem mm2_apply (a : FVec Ideal S64x128x128 .bf16) (w2t : FVec Ideal S64x64x128 .bf16) (n : Fin 64) (b : Fin 128) (d : Fin 64) :
    matmul dot_S64x128x128_S64x64x128_S64x128x64_2_2_1_1_0_0 none a w2t (constant S64x128x64 .f32 0x00000000#32) (ix3 n b d)
      = ∑ e : Fin 128, a (ix3 n b e) * w2t (ix3 n d e) := by
  refine (Ideal.matmul_constant_zero_apply _ none a w2t (ix3 n b d)).trans ?_
  refine ((contrEquiv1 dot_S64x128x128_S64x64x128_S64x128x64_2_2_1_1_0_0 128 rfl rfl).symm.sum_comp _).symm.trans ?_
  refine Finset.sum_congr rfl fun k _ => ?_
  congr 1
  · refine congrArg a (funext fun x => Fin.ext ?_)
    match x with
    | ⟨0, _⟩ => rfl
    | ⟨1, _⟩ => rfl
    | ⟨2, _⟩ => exact (DotDims.lhsIdx_val_of_single _ rfl _ _).trans (contrEquiv1_symm_val _ 128 rfl rfl k)
  · refine congrArg w2t (funext fun x => Fin.ext ?_)
    match x with
    | ⟨0, _⟩ => rfl
    | ⟨1, _⟩ => rfl
    | ⟨2, _⟩ => exact (DotDims.rhsIdx_val_of_single _ rfl _ _).trans (contrEquiv1_symm_val _ 128 rfl rfl k)

/-- A bias row spread over the tile's 128 rows. -/
theorem bias1_apply (b1 : FVec Ideal S64x1x128 .f32) (n : Fin 64) (b : Fin 128) (e : Fin 128) :
    broadcastTo S64x128x128 b1 broadcasts_S64x1x128_S64x128x128 (ix3 n b e) = b1 (ix3 n 0 e) :=
  broadcastTo_apply b1 _ (ix3 n b e) (ix3 n 0 e) fun a => match a with
    | ⟨0, _⟩ => rfl
    | ⟨1, _⟩ => rfl
    | ⟨2, _⟩ => rfl

theorem bias2_apply (b2 : FVec Ideal S64x1x64 .f32) (n : Fin 64) (b : Fin 128) (d : Fin 64) :
    broadcastTo S64x128x64 b2 broadcasts_S64x1x64_S64x128x64 (ix3 n b d) = b2 (ix3 n 0 d) :=
  broadcastTo_apply b2 _ (ix3 n b d) (ix3 n 0 d) fun a => match a with
    | ⟨0, _⟩ => rfl
    | ⟨1, _⟩ => rfl
    | ⟨2, _⟩ => rfl

/-- THE LAYER AT AN ENTRY: block `n`, row `b` of the tile, feature `d` — the specification's layer on row `b`'s matrix. -/
theorem kLayer_apply (z : FVec Ideal S64x128x64 .f32) (w1 : FVec Ideal S64x64x128 .bf16) (b1 : FVec Ideal S64x1x128 .f32)
    (w2t : FVec Ideal S64x64x128 .bf16) (b2 : FVec Ideal S64x1x64 .f32) (n : Fin 64) (b : Fin 128) (d : Fin 64) :
    kLayer (F := Ideal) z w1 b1 w2t b2 (ix3 n b d)
      = Cert.BlockMlp.layer (fun n k e => w1 (ix3 n k e)) (fun n e => b1 (ix3 n 0 e)) (fun n e d => w2t (ix3 n d e))
          (fun n d => b2 (ix3 n 0 d)) (fun n d => z (ix3 n b d)) n d := by
  unfold kLayer Cert.BlockMlp.layer
  rw [addf_apply, addf_apply, mm2_apply, bias2_apply]
  refine congrArg (fun s => s + b2 (ix3 n 0 d) + z (ix3 n b d)) (Finset.sum_congr rfl fun e _ => ?_)
  rw [truncf_apply, kElu_apply, addf_apply, mm1_apply, bias1_apply]
  rfl

end Cert.KernelIdeal.KLayer

end
-- ==== Proof.KTile.lean ====
/-
  What the kernel's body leaves in its output tile (128 rows of 4096), entry by entry, at the ideal values. Row `r` of the
  input tile is cut into 64 blocks of 64 features; layer 0 acts on that matrix with the first slab of each weight array;
  the result is transposed (block and feature change places); layer 1 acts with the second slab; and entry `(n, d)` of
  that lands at column `64·d + n` of row `r` — so column `j` holds entry `(j mod 64, j / 64)`. Rows do not interact, and
  the second matrix product's weights are read through their transpose (the tile holds `[block, feature, hidden]`).
-/
import proofs.«106645_j47888885350878_2_alg».proof.Proof.KLayer
import proofs.«106645_j47888885350878_2_alg».proof.Proof.Gen.KernelIdeal.Frame

noncomputable section

namespace Cert.KernelIdeal.KTile

open Cert.KernelIdeal Cert.KernelIdeal.Gen Cert.KernelIdeal.KLayer Idealize.ShloMosaic Idealize.ShloMosaic.ValueIdx Cert.BlockMlp

theorem hz2 : (![0, 0] : Fin 2 → Nat) = fun _ => 0 := funext fun a => match a with | ⟨0, _⟩ => rfl | ⟨1, _⟩ => rfl

/-! ## The re-arrangements at an entry -/

/-- The tile's rows cut into blocks, blocks first: entry `(n, r, d)` is row `r`, column `64·n + d`. -/
theorem rows_apply (x0 : Vec Ideal S128x4096 .f32) (n : Fin 64) (r : Fin 128) (d : Fin 64) :
    transpose S64x128x64 [1, 0, 2] (shapeCast S128x64x64 x0 shapeCasts_S128x4096_S128x64x64)
        transposes_S128x64x64_p1_0_2_S64x128x64 (ix3 n r d) = x0 (ix2 r (col n d)) := by
  refine (transpose_apply _ _ _ (ix3 n r d) (ix3 r n d)
    (fun b => match b with | ⟨0, _⟩ => rfl | ⟨1, _⟩ => rfl | ⟨2, _⟩ => rfl)).trans ?_
  refine shapeCast_apply _ _ (ix3 r n d) (ix2 r (col n d)) ?_
  rw [Shape.rowMajor_val_two, Shape.rowMajor_val_three]
  show r.val * 4096 + (64 * n.val + d.val) = (r.val * 64 + n.val) * 64 + d.val
  omega

/-- The end-to-end transposition between the layers: entry `(n, r, d)` reads entry `(d, r, n)`. -/
theorem flip_apply (v : FVec Ideal S64x128x64 .f32) (n : Fin 64) (r : Fin 128) (d : Fin 64) :
    transpose S64x128x64 [2, 1, 0] v transposes_S64x128x64_p2_1_0_S64x128x64 (ix3 n r d) = v (ix3 d r n) :=
  transpose_apply _ _ _ (ix3 n r d) (ix3 d r n) (fun b => match b with | ⟨0, _⟩ => rfl | ⟨1, _⟩ => rfl | ⟨2, _⟩ => rfl)

/-- Slab `0` / slab `1` of a weight array held `[2, 64, 64, 128]`, its leading axis dropped. -/
theorem w_slab0 (x : Vec Ideal S2x64x64x128 .bf16) (n k : Fin 64) (e : Fin 128) :
    shapeCast S64x64x128 (View.ld x r0_1) shapeCasts_S1x64x64x128_S64x64x128 (ix3 n k e) = x (ix4 0 n k e) := by
  refine (shapeCast_apply _ _ (ix3 n k e) (ix4 0 n k e) ?_).trans ?_
  · rw [Shape.rowMajor_val_four, Shape.rowMajor_val_three]
    show ((0 * 64 + n.val) * 64 + k.val) * 128 + e.val = (n.val * 64 + k.val) * 128 + e.val
    omega
  · refine congrArg x (funext fun a => Fin.ext ?_)
    match a with
    | ⟨0, _⟩ => show 0 + 1 * 0 = 0; omega
    | ⟨1, _⟩ => show 0 + 1 * n.val = n.val; omega
    | ⟨2, _⟩ => show 0 + 1 * k.val = k.val; omega
    | ⟨3, _⟩ => show 0 + 1 * e.val = e.val; omega

theorem w_slab1 (x : Vec Ideal S2x64x64x128 .bf16) (n k : Fin 64) (e : Fin 128) :
    shapeCast S64x64x128 (View.ld x r0_4) shapeCasts_S1x64x64x128_S64x64x128 (ix3 n k e) = x (ix4 1 n k e) := by
  refine (shapeCast_apply _ _ (ix3 n k e) (ix4 0 n k e) ?_).trans ?_
  · rw [Shape.rowMajor_val_four, Shape.rowMajor_val_three]
    show ((0 * 64 + n.val) * 64 + k.val) * 128 + e.val = (n.val * 64 + k.val) * 128 + e.val
    omega
  · refine congrArg x (funext fun a => Fin.ext ?_)
    match a with
    | ⟨0, _⟩ => show 1 + 1 * 0 = 1; omega
    | ⟨1, _⟩ => show 0 + 1 * n.val = n.val; omega
    | ⟨2, _⟩ => show 0 + 1 * k.val = k.val; omega
    | ⟨3, _⟩ => show 0 + 1 * e.val = e.val; omega

/-- The first bias's slabs (`[2, 64, 1, 128]`). -/
theorem b1_slab0 (x : Vec Ideal S2x64x1x128 .f32) (n : Fin 64) (e : Fin 128) :
    shapeCast S64x1x128 (View.ld x r0_2) shapeCasts_S1x64x1x128_S64x1x128 (ix3 n 0 e) = x (ix4 0 n 0 e) := by
  refine (shapeCast_apply _ _ (ix3 n 0 e) (ix4 0 n 0 e) ?_).trans ?_
  · rw [Shape.rowMajor_val_four, Shape.rowMajor_val_three]
    show ((0 * 64 + n.val) * 1 + 0) * 128 + e.val = (n.val * 1 + 0) * 128 + e.val
    omega
  · refine congrArg x (funext fun a => Fin.ext ?_)
    match a with
    | ⟨0, _⟩ => show 0 + 1 * 0 = 0; omega
    | ⟨1, _⟩ => show 0 + 1 * n.val = n.val; omega
    | ⟨2, _⟩ => show 0 + 1 * 0 = 0; omega
    | ⟨3, _⟩ => show 0 + 1 * e.val = e.val; omega

theorem b1_slab1 (x : Vec Ideal S2x64x1x128 .f32) (n : Fin 64) (e : Fin 128) :
    shapeCast S64x1x128 (View.ld x r0_5) shapeCasts_S1x64x1x128_S64x1x128 (ix3 n 0 e) = x (ix4 1 n 0 e) := by
  refine (shapeCast_apply _ _ (ix3 n 0 e) (ix4 0 n 0 e) ?_).trans ?_
  · rw [Shape.rowMajor_val_four, Shape.rowMajor_val_three]
    show ((0 * 64 + n.val) * 1 + 0) * 128 + e.val = (n.val * 1 + 0) * 128 + e.val
    omega
  · refine congrArg x (funext fun a => Fin.ext ?_)
    match a with
    | ⟨0, _⟩ => show 1 + 1 * 0 = 1; omega
    | ⟨1, _⟩ => show 0 + 1 * n.val = n.val; omega
    | ⟨2, _⟩ => show 0 + 1 * 0 = 0; omega
    | ⟨3, _⟩ => show 0 + 1 * e.val = e.val; omega

/-- The second bias's slabs (`[2, 64, 1, 64]`). -/
theorem b2_slab0 (x : Vec Ideal S2x64x1x64 .f32) (n d : Fin 64) :
    shapeCast S64x1x64 (View.ld x r0_3) shapeCasts_S1x64x1x64_S64x1x64 (ix3 n 0 d) = x (ix4 0 n 0 d) := by
  refine (shapeCast_apply _ _ (ix3 n 0 d) (ix4 0 n 0 d) ?_).trans ?_
  · rw [Shape.rowMajor_val_four, Shape.rowMajor_val_three]
    show ((0 * 64 + n.val) * 1 + 0) * 64 + d.val = (n.val * 1 + 0) * 64 + d.val
    omega
  · refine congrArg x (funext fun a => Fin.ext ?_)
    match a with
    | ⟨0, _⟩ => show 0 + 1 * 0 = 0; omega
    | ⟨1, _⟩ => show 0 + 1 * n.val = n.val; omega
    | ⟨2, _⟩ => show 0 + 1 * 0 = 0; omega
    | ⟨3, _⟩ => show 0 + 1 * d.val = d.val; omega

theorem b2_slab1 (x : Vec Ideal S2x64x1x64 .f32) (n d : Fin 64) :
    shapeCast S64x1x64 (View.ld x r0_6) shapeCasts_S1x64x1x64_S64x1x64 (ix3 n 0 d) = x (ix4 1 n 0 d) := by
  refine (shapeCast_apply _ _ (ix3 n 0 d) (ix4 0 n 0 d) ?_).trans ?_
  · rw [Shape.rowMajor_val_four, Shape.rowMajor_val_three]
    show ((0 * 64 + n.val) * 1 + 0) * 64 + d.val = (n.val * 1 + 0) * 64 + d.val
    omega
  · refine congrArg x (funext fun a => Fin.ext ?_)
    match a with
    | ⟨0, _⟩ => show 1 + 1 * 0 = 1; omega
    | ⟨1, _⟩ => show 0 + 1 * n.val = n.val; omega
    | ⟨2, _⟩ => show 0 + 1 * 0 = 0; omega
    | ⟨3, _⟩ => show 0 + 1 * d.val = d.val; omega

/-! ## The tile -/

/-- `layer` reads its five function arguments entry by entry. -/
theorem layer_congr {w1 w1' : Fin 64 → Fin 64 → Fin 128 → EReal} {b1 b1' : Fin 64 → Fin 128 → EReal}
    {w2 w2' : Fin 64 → Fin 128 → Fin 64 → EReal} {b2 b2' : Fin 64 → Fin 64 → EReal} {z z' : Fin 64 → Fin 64 → EReal}
    (h1 : ∀ n k e, w1 n k e = w1' n k e) (h2 : ∀ n e, b1 n e = b1' n e) (h3 : ∀ n e d, w2 n e d = w2' n e d)
    (h4 : ∀ n d, b2 n d = b2' n d) (h5 : ∀ n d, z n d = z' n d) (n d : Fin 64) :
    layer w1 b1 w2 b2 z n d = layer w1' b1' w2' b2' z' n d := by
  have e1 : w1 = w1' := funext fun n => funext fun k => funext fun e => h1 n k e
  have e2 : b1 = b1' := funext fun n => funext fun e => h2 n e
  have e3 : w2 = w2' := funext fun n => funext fun e => funext fun d => h3 n e d
  have e4 : b2 = b2' := funext fun n => funext fun d => h4 n d
  have e5 : z = z' := funext fun n => funext fun d => h5 n d
  rw [e1, e2, e3, e4, e5]

/-- Entry `(r, j)` of the output tile, from the input tile `x0` and the four weight arrays as the body finds them
    (`x3` the second weights held transposed): layer 1 of the transposed layer 0 of row `r`, at block `j mod 64`,
    feature `j / 64`. -/
def tileOut (x0 : Vec Ideal S128x4096 .f32) (x1 : Vec Ideal S2x64x64x128 .bf16) (x2 : Vec Ideal S2x64x1x128 .f32)
    (x3 : Vec Ideal S2x64x64x128 .bf16) (x4 : Vec Ideal S2x64x1x64 .f32) (r : Fin 128) (j : Fin 4096) : EReal :=
  layer (fun n k e => x1 (ix4 1 n k e)) (fun n e => x2 (ix4 1 n 0 e)) (fun n e d => x3 (ix4 1 n d e)) (fun n d => x4 (ix4 1 n 0 d))
    (fun n1 d1 => layer (fun n k e => x1 (ix4 0 n k e)) (fun n e => x2 (ix4 0 n 0 e)) (fun n e d => x3 (ix4 0 n d e))
      (fun n d => x4 (ix4 0 n 0 d)) (fun n d => x0 (ix2 r (col n d))) d1 n1)
    ⟨j.val % 64, by omega⟩ ⟨j.val / 64, by omega⟩

/-- THE BODY'S OUTPUT TILE AT AN ENTRY. -/
theorem out_apply (x0 : Vec Ideal S128x4096 .f32) (x1 : Vec Ideal S2x64x64x128 .bf16) (x2 : Vec Ideal S2x64x1x128 .f32)
    (x3 : Vec Ideal S2x64x64x128 .bf16) (x4 : Vec Ideal S2x64x1x64 .f32) (r : Fin 128) (j : Fin 4096) :
    out0_5 x0 x1 x2 x3 x4 (ix2 r j) = tileOut x0 x1 x2 x3 x4 r j := by
  have hj := j.isLt
  unfold out0_5
  rw [View.canon_unit_zero (S := S128x4096) hz2, pay1_eq, pay2_eq, pay3_eq, View.ld_unit_zero (S := S128x4096) hz2]
  -- the row of 4096 as a 64 × 64 matrix: column j is entry (j / 64, j mod 64)
  refine (shapeCast_apply _ _ (ix2 r j) (ix3 r ⟨j.val / 64, by omega⟩ ⟨j.val % 64, by omega⟩) ?_).trans ?_
  · rw [Shape.rowMajor_val_three, Shape.rowMajor_val_two]
    show (r.val * 64 + j.val / 64) * 64 + j.val % 64 = r.val * 4096 + j.val
    omega
  -- rows first again: entry (r, p, q) reads the blocks-first entry (q, r, p)
  refine (transpose_apply _ _ _ _ (ix3 ⟨j.val % 64, by omega⟩ r ⟨j.val / 64, by omega⟩)
    (fun b => match b with | ⟨0, _⟩ => rfl | ⟨1, _⟩ => rfl | ⟨2, _⟩ => rfl)).trans ?_
  refine (kLayer_apply _ _ _ _ _ _ _ _).trans ?_
  unfold tileOut
  refine layer_congr (fun n k e => w_slab1 x1 n k e) (fun n e => b1_slab1 x2 n e) (fun n e d => w_slab1 x3 n d e)
    (fun n d => b2_slab1 x4 n d) (fun n1 d1 => ?_) _ _
  -- layer 1's input is layer 0's output with block and feature exchanged
  refine (flip_apply _ n1 r d1).trans ?_
  refine (kLayer_apply _ _ _ _ _ d1 r n1).trans ?_
  exact layer_congr (fun n k e => w_slab0 x1 n k e) (fun n e => b1_slab0 x2 n e) (fun n e d => w_slab0 x3 n d e)
    (fun n d => b2_slab0 x4 n d) (fun n d => rows_apply x0 n r d) _ _

end Cert.KernelIdeal.KTile

end
-- ==== Proof.KValue.lean ====
/-
  From tiles to the array. The grid has 64 points; point `t` reads rows `128·t … 128·t + 127` of the input and the four
  weight arrays whole (the two matrix arrays as the host prepared them: the first rounded to sixteen bits — at the ideal
  values unchanged —, the second with its last two axes exchanged and rounded), and writes back the same rows of the
  output. What it writes is the specification `G` of the five ARGUMENT arrays, read through its block, because rows do
  not interact; the 64 blocks tile the 8192 rows; so the output array ends holding `G`.
-/
import proofs.«106645_j47888885350878_2_alg».proof.Proof.KTile
import proofs.«106645_j47888885350878_2_alg».proof.Proof.Gen.KernelIdeal.Value
import Idealize.ShloMosaic.Lib.StableHlo.Run

noncomputable section

namespace Cert.KernelIdeal.KValue

open Cert.KernelIdeal Cert.KernelIdeal.Gen Cert.KernelIdeal.KTile Idealize.ShloMosaic Idealize.ShloMosaic.TcCoe
open Idealize.SL.Sem Idealize.ShloMosaic.ValueIdx Idealize.ShloMosaic.StableHlo Cert.BlockMlp
open Idealize.ShloMosaic.Pipeline (Dat)

variable (m : (ℓ : Loc nD τ sig) → Buf (Elt Ideal) ℓ) (ρ : Dev nD → PrngReg)

/-! ## The arrays the host prepared -/

/-- The first weights as the region finds them: the argument, each entry rounded to sixteen bits. -/
theorem V_w1 (c : Dev nD) :
    (V m c main_v0 : S2x64x64x128.Idx → EReal)
      = truncf (F := Ideal) .bf16 (m ((c : Thread nD τ).loc main_arg1)) bitsLt_bf16_f32 := by
  dsimp only [Gen.V, Gen.hostOps0]; after_results

/-- The second weights as the region finds them: the argument with its last two axes exchanged, rounded likewise. -/
theorem V_w2 (c : Dev nD) :
    (V m c main_v2 : S2x64x64x128.Idx → EReal)
      = truncf (F := Ideal) .bf16 (transpose S2x64x64x128 [0, 1, 3, 2] (m ((c : Thread nD τ).loc main_arg3))
          transposes_S2x64x128x64_S2x64x64x128_0_1_3_2) bitsLt_bf16_f32 := by
  dsimp only [Gen.V, Gen.hostOps0]; after_results

/-! ## The index maps, decided over the grid -/

/-- Point `t`'s input and output blocks are block `t` along the rows and the one block along the columns; the weight
    arrays' one block is block zero on every axis. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ (∀ a : Fin 4, win0_1.index t a = 0) ∧ (∀ a : Fin 4, win0_2.index t a = 0)
    ∧ (∀ a : Fin 4, win0_3.index t a = 0) ∧ (∀ a : Fin 4, win0_4.index t a = 0) :=
  (by decide +kernel : ∀ t : Fin grid0.N, _)

/-- Row `r` of point `t`'s tile is row `128·t + r` of the array. -/
def row (t : Fin cfg0.N) (r : Fin 128) : Fin 8192 :=
  ⟨128 * t.val + r.val, by have ht : t.val < 64 := lt_of_lt_of_eq t.isLt N_0; omega⟩

/-! ## The input blocks at an entry -/

theorem blk0_apply (c : Dev nD) (t : Fin cfg0.N) (r : Fin 128) (j : Fin 4096) :
    iblk m c 0 t (ix2 r j) = m ((c : Thread nD τ).loc main_arg0) (ix2 (row t r) j) := by
  obtain ⟨e0, e1, -⟩ := idx_facts t
  show V m c main_arg0 (((cfg0.win 0).blk t).view.emb (ix2 r j)) = _
  rw [V_main_arg0]
  refine congrArg _ (funext fun a => Fin.ext ?_)
  match a with
  | ⟨0, _⟩ => show win0_0.index t (0 : Fin 2) * 128 + 1 * r.val = 128 * t.val + r.val; omega
  | ⟨1, _⟩ => show win0_0.index t (1 : Fin 2) * 4096 + 1 * j.val = j.val; omega

theorem blk1_apply (c : Dev nD) (t : Fin cfg0.N) (l : Fin 2) (n k : Fin 64) (e : Fin 128) :
    iblk m c 1 t (ix4 l n k e) = m ((c : Thread nD τ).loc main_arg1) (ix4 l n k e) := by
  obtain ⟨-, -, -, -, e1, -⟩ := idx_facts t
  show V m c main_v0 (((cfg0.win 1).blk t).view.emb (ix4 l n k e)) = _
  rw [V_w1, truncf_apply]
  refine congrArg _ (funext fun a => Fin.ext ?_)
  match a with
  | ⟨0, _⟩ => show win0_1.index t (0 : Fin 4) * 2 + 1 * l.val = l.val; rw [e1 0]; omega
  | ⟨1, _⟩ => show win0_1.index t (1 : Fin 4) * 64 + 1 * n.val = n.val; rw [e1 1]; omega
  | ⟨2, _⟩ => show win0_1.index t (2 : Fin 4) * 64 + 1 * k.val = k.val; rw [e1 2]; omega
  | ⟨3, _⟩ => show win0_1.index t (3 : Fin 4) * 128 + 1 * e.val = e.val; rw [e1 3]; omega

theorem blk2_apply (c : Dev nD) (t : Fin cfg0.N) (l : Fin 2) (n : Fin 64) (e : Fin 128) :
    iblk m c 2 t (ix4 l n 0 e) = m ((c : Thread nD τ).loc main_arg2) (ix4 l n 0 e) := by
  obtain ⟨-, -, -, -, -, e2, -⟩ := idx_facts t
  show V m c main_arg2 (((cfg0.win 2).blk t).view.emb (ix4 l n 0 e)) = _
  rw [V_main_arg2]
  refine congrArg _ (funext fun a => Fin.ext ?_)
  match a with
  | ⟨0, _⟩ => show win0_2.index t (0 : Fin 4) * 2 + 1 * l.val = l.val; rw [e2 0]; omega
  | ⟨1, _⟩ => show win0_2.index t (1 : Fin 4) * 64 + 1 * n.val = n.val; rw [e2 1]; omega
  | ⟨2, _⟩ => show win0_2.index t (2 : Fin 4) * 1 + 1 * 0 = 0; rw [e2 2]
  | ⟨3, _⟩ => show win0_2.index t (3 : Fin 4) * 128 + 1 * e.val = e.val; rw [e2 3]; omega

/-- The second weights' block, held `[layer, block, feature, hidden]`, reads the argument at `[layer, block, hidden, feature]`. -/
theorem blk3_apply (c : Dev nD) (t : Fin cfg0.N) (l : Fin 2) (n d : Fin 64) (e : Fin 128) :
    iblk m c 3 t (ix4 l n d e) = m ((c : Thread nD τ).loc main_arg3) (ix4 l n e d) := by
  obtain ⟨-, -, -, -, -, -, e3, -⟩ := idx_facts t
  show V m c main_v2 (((cfg0.win 3).blk t).view.emb (ix4 l n d e)) = _
  rw [V_w2, truncf_apply]
  refine (transpose_apply _ _ _ _ (ix4 l n e d) (fun b => ?_)).trans rfl
  match b with
  | ⟨0, _⟩ => show l.val = win0_3.index t (0 : Fin 4) * 2 + 1 * l.val; rw [e3 0]; omega
  | ⟨1, _⟩ => show n.val = win0_3.index t (1 : Fin 4) * 64 + 1 * n.val; rw [e3 1]; omega
  | ⟨2, _⟩ => show d.val = win0_3.index t (2 : Fin 4) * 64 + 1 * d.val; rw [e3 2]; omega
  | ⟨3, _⟩ => show e.val = win0_3.index t (3 : Fin 4) * 128 + 1 * e.val; rw [e3 3]; omega

theorem blk4_apply (c : Dev nD) (t : Fin cfg0.N) (l : Fin 2) (n d : Fin 64) :
    iblk m c 4 t (ix4 l n 0 d) = m ((c : Thread nD τ).loc main_arg4) (ix4 l n 0 d) := by
  obtain ⟨-, -, -, -, -, -, -, e4⟩ := idx_facts t
  show V m c main_arg4 (((cfg0.win 4).blk t).view.emb (ix4 l n 0 d)) = _
  rw [V_main_arg4]
  refine congrArg _ (funext fun a => Fin.ext ?_)
  match a with
  | ⟨0, _⟩ => show win0_4.index t (0 : Fin 4) * 2 + 1 * l.val = l.val; rw [e4 0]; omega
  | ⟨1, _⟩ => show win0_4.index t (1 : Fin 4) * 64 + 1 * n.val = n.val; rw [e4 1]; omega
  | ⟨2, _⟩ => show win0_4.index t (2 : Fin 4) * 1 + 1 * 0 = 0; rw [e4 2]
  | ⟨3, _⟩ => show win0_4.index t (3 : Fin 4) * 64 + 1 * d.val = d.val; rw [e4 3]; omega

/-! ## What a point writes back, the cover, the array -/

/-- The specification of the argument arrays as launched. -/
abbrev Gm (c : Dev nD) : S8192x4096.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of `G`. -/
theorem flushed_eq (c : Dev nD) (t : Fin cfg0.N) :
    (dats m 0 c).flushed 5 t = ((cfg0.win 5).blk t).view.read (Elt Ideal) (Gm m c) := by
  obtain ⟨-, -, e0, e1, -⟩ := idx_facts t
  rw [Value.flushed5]
  funext y
  obtain ⟨r, j, rfl⟩ : ∃ (r : Fin 128) (j : Fin 4096), y = ix2 r j := ⟨y 0, y 1, eq_ix2 y⟩
  show out0_5 (iblk m c 0 t) (iblk m c 1 t) (iblk m c 2 t) (iblk m c 3 t) (iblk m c 4 t) (ix2 r j)
      = Gm m c (((cfg0.win 5).blk t).view.emb (ix2 r j))
  refine (out_apply _ _ _ _ _ r j).trans ?_
  have hi : ((cfg0.win 5).blk t).view.emb (ix2 r j) = ix2 (row t r) j := by
    funext a; apply Fin.ext
    match a with
    | ⟨0, _⟩ => show win0_5.index t (0 : Fin 2) * 128 + 1 * r.val = 128 * t.val + r.val; omega
    | ⟨1, _⟩ => show win0_5.index t (1 : Fin 2) * 4096 + 1 * j.val = j.val; omega
  rw [hi]
  show tileOut _ _ _ _ _ r j = Grow _ _ _ _ _ (row t r) j
  unfold tileOut Grow layerOf
  refine layer_congr (fun n k e => blk1_apply m c t 1 n k e) (fun n e => blk2_apply m c t 1 n e)
    (fun n e d => blk3_apply m c t 1 n d e) (fun n d => blk4_apply m c t 1 n d) (fun n1 d1 => ?_) _ _
  exact layer_congr (fun n k e => blk1_apply m c t 0 n k e) (fun n e => blk2_apply m c t 0 n e)
    (fun n e d => blk3_apply m c t 0 n d e) (fun n d => blk4_apply m c t 0 n d)
    (fun n d => blk0_apply m c t r (col n d)) _ _

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v3).slice (win0_5.rect t)).set ↔ _
  rw [View.set_slice_whole, Rect.mem_set_unit]
  exact Iff.rfl

/-- Row `i` is in the block of point `i / 128`. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : (i 0).val / 128 < cfg0.N := by rw [show cfg0.N = 64 from N_0]; omega
  refine ⟨⟨(i 0).val / 128, hN⟩, flush0_5 _, ?_⟩
  obtain ⟨-, -, e0, e1, -⟩ := idx_facts ⟨(i 0).val / 128, hN⟩
  rw [mem_blk]
  intro a
  match a with
  | ⟨0, _⟩ =>
    show win0_5.index ⟨(i 0).val / 128, hN⟩ (0 : Fin 2) * 128 ≤ (i 0).val
      ∧ (i 0).val < win0_5.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_5.index ⟨(i 0).val / 128, hN⟩ (1 : Fin 2) * 4096 ≤ (i 1).val
      ∧ (i 1).val < win0_5.index ⟨(i 0).val / 128, hN⟩ (1 : Fin 2) * 4096 + 4096
    rw [e1]; omega

/-- THE OUTPUT ARRAY after the run is `G` of the argument arrays. -/
theorem final (c : Dev nD) : (dats m 0 c).arrAt 5 cfg0.N = Gm m c :=
  (dats m 0 c).arrAt_eq_of_cover 5 (Gm m c) (fun t _ => flushed_eq m c t) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RTerm.lean ====
/-
  The reference's result as ONE term of its five argument arrays: the operations of its program composed, grouped by what
  they do. A row of 4096 numbers is cut into 64 blocks of 64 (`toBlocks`: blocks first, then rows, then features) and put
  back (`fromBlocks`); between the two layers the row is read as a 64 × 64 matrix and transposed (`shuffle64`), and once
  more at the end; the first layer's shuffle and its inverse move nothing (a transposition against an axis of extent one:
  `shuffle1`, `unshuffle1`). One layer (`rLayer`) is two batched matrix products with a bias each, the activation between
  them (`eluT`: the identity above zero, `1 · expm1` of the non-positive part elsewhere) and the residual sum.
-/
import proofs.«106645_j47888885350878_2_alg».proof.Proof.Gen.ReferenceIdeal

noncomputable section

namespace Cert.ReferenceIdeal.RefValue

open Cert.ReferenceIdeal Cert.ReferenceIdeal.Gen Idealize.ShloMosaic

variable {F : FTy → Type} [FloatOps F]

/-- A scalar pattern broadcast to the hidden activations' shape. -/
def splat (b : BitVec 32) : FVec F S64x8192x128 .f32 :=
  broadcastInDim S64x8192x128 ![] bcast_S_S64x8192x128 (constant S_ .f32 b)

/-- The activation as the reference spells it: where `h > 0` the entry itself, elsewhere `1 · expm1` of the entry
    (the positive entries replaced by zero before the exponential is taken). -/
def eluT (h : FVec F S64x8192x128 .f32) : FVec F S64x8192x128 .f32 :=
  select (cmpf .ogt h (splat 0x00000000#32)) h
    (mulf (splat 0x3F800000#32)
      (Host.expm1 (select (cmpf .ogt h (splat 0x00000000#32)) (splat 0x00000000#32) h)))

/-- One layer on the blocks-first form `[block, row, feature]`. -/
def rLayer (z : FVec F S64x8192x64 .f32) (w1 : FVec F S64x64x128 .f32) (b1 : FVec F S64x1x128 .f32)
    (w2 : FVec F S64x128x64 .f32) (b2 : FVec F S64x1x64 .f32) : FVec F S64x8192x64 .f32 :=
  addf (addf (Host.dotGeneral dot_S64x8192x128_S64x128x64_S64x8192x64_2_1_1_2_0_0 none
      (eluT (addf (Host.dotGeneral dot_S64x8192x64_S64x64x128_S64x8192x128_2_1_1_2_0_0 none z w1)
        (broadcastInDim S64x8192x128 ![0, 1, 2] bcast_S64x1x128_S64x8192x128_0_1_2 b1))) w2)
    (broadcastInDim S64x8192x64 ![0, 1, 2] bcast_S64x1x64_S64x8192x64_0_1_2 b2)) z

/-- The first layer's shuffle: rows of 64 against a trailing axis of extent one. -/
def shuffle1 (y : FVec F S8192x4096 .f32) : FVec F S8192x4096 .f32 :=
  shapeCast S8192x4096 (transpose S524288x1x64 [0, 2, 1] (shapeCast S524288x64x1 y shapeCasts_S8192x4096_S524288x64x1)
    transposes_S524288x64x1_S524288x1x64_0_2_1) shapeCasts_S524288x1x64_S8192x4096

/-- Its inverse. -/
def unshuffle1 (y : FVec F S8192x4096 .f32) : FVec F S8192x4096 .f32 :=
  shapeCast S8192x4096 (transpose S524288x64x1 [0, 2, 1] (shapeCast S524288x1x64 y shapeCasts_S8192x4096_S524288x1x64)
    transposes_S524288x1x64_S524288x64x1_0_2_1) shapeCasts_S524288x64x1_S8192x4096

/-- The second layer's shuffle (and its inverse: the same three operations): each row as a 64 × 64 matrix, transposed. -/
def shuffle64 (y : FVec F S8192x4096 .f32) : FVec F S8192x4096 .f32 :=
  shapeCast S8192x4096 (transpose S8192x64x64 [0, 2, 1] (shapeCast S8192x64x64 y shapeCasts_S8192x4096_S8192x64x64)
    transposes_S8192x64x64_S8192x64x64_0_2_1) shapeCasts_S8192x64x64_S8192x4096

/-- Rows cut into 64 blocks of 64, blocks first. -/
def toBlocks (y : FVec F S8192x4096 .f32) : FVec F S64x8192x64 .f32 :=
  transpose S64x8192x64 [1, 0, 2] (shapeCast S8192x64x64 y shapeCasts_S8192x4096_S8192x64x64)
    transposes_S8192x64x64_S64x8192x64_1_0_2

/-- And back. -/
def fromBlocks (z : FVec F S64x8192x64 .f32) : FVec F S8192x4096 .f32 :=
  shapeCast S8192x4096 (transpose S8192x64x64 [1, 0, 2] z transposes_S64x8192x64_S8192x64x64_1_0_2)
    shapeCasts_S8192x64x64_S8192x4096

/-- Layer 0's and layer 1's weights: slab `l` of each array along its leading axis, that axis dropped. -/
def w1L0 (w : FVec F S2x64x64x128 .f32) : FVec F S64x64x128 .f32 :=
  shapeCast S64x64x128 (extractStridedSlice S1x64x64x128 ![0, 0, 0, 0] w slices_S2x64x64x128_S1x64x64x128_0_0_0_0) shapeCasts_S1x64x64x128_S64x64x128
def b1L0 (w : FVec F S2x64x1x128 .f32) : FVec F S64x1x128 .f32 :=
  shapeCast S64x1x128 (extractStridedSlice S1x64x1x128 ![0, 0, 0, 0] w slices_S2x64x1x128_S1x64x1x128_0_0_0_0) shapeCasts_S1x64x1x128_S64x1x128
def w2L0 (w : FVec F S2x64x128x64 .f32) : FVec F S64x128x64 .f32 :=
  shapeCast S64x128x64 (extractStridedSlice S1x64x128x64 ![0, 0, 0, 0] w slices_S2x64x128x64_S1x64x128x64_0_0_0_0) shapeCasts_S1x64x128x64_S64x128x64
def b2L0 (w : FVec F S2x64x1x64 .f32) : FVec F S64x1x64 .f32 :=
  shapeCast S64x1x64 (extractStridedSlice S1x64x1x64 ![0, 0, 0, 0] w slices_S2x64x1x64_S1x64x1x64_0_0_0_0) shapeCasts_S1x64x1x64_S64x1x64
def w1L1 (w : FVec F S2x64x64x128 .f32) : FVec F S64x64x128 .f32 :=
  shapeCast S64x64x128 (extractStridedSlice S1x64x64x128 ![1, 0, 0, 0] w slices_S2x64x64x128_S1x64x64x128_1_0_0_0) shapeCasts_S1x64x64x128_S64x64x128
def b1L1 (w : FVec F S2x64x1x128 .f32) : FVec F S64x1x128 .f32 :=
  shapeCast S64x1x128 (extractStridedSlice S1x64x1x128 ![1, 0, 0, 0] w slices_S2x64x1x128_S1x64x1x128_1_0_0_0) shapeCasts_S1x64x1x128_S64x1x128
def w2L1 (w : FVec F S2x64x128x64 .f32) : FVec F S64x128x64 .f32 :=
  shapeCast S64x128x64 (extractStridedSlice S1x64x128x64 ![1, 0, 0, 0] w slices_S2x64x128x64_S1x64x128x64_1_0_0_0) shapeCasts_S1x64x128x64_S64x128x64
def b2L1 (w : FVec F S2x64x1x64 .f32) : FVec F S64x1x64 .f32 :=
  shapeCast S64x1x64 (extractStridedSlice S1x64x1x64 ![1, 0, 0, 0] w slices_S2x64x1x64_S1x64x1x64_1_0_0_0) shapeCasts_S1x64x1x64_S64x1x64

/-- The reference's result: shuffle, layer 0, inverse shuffle; shuffle, layer 1, inverse shuffle. -/
def refTerm (x : FVec F S8192x4096 .f32) (w1 : FVec F S2x64x64x128 .f32) (b1 : FVec F S2x64x1x128 .f32)
    (w2 : FVec F S2x64x128x64 .f32) (b2 : FVec F S2x64x1x64 .f32) : FVec F S8192x4096 .f32 :=
  shuffle64 (fromBlocks (rLayer
    (toBlocks (shuffle64 (unshuffle1 (fromBlocks (rLayer (toBlocks (shuffle1 x)) (w1L0 w1) (b1L0 b1) (w2L0 w2) (b2L0 b2))))))
    (w1L1 w1) (b1L1 b1) (w2L1 w2) (b2L1 b2)))

end Cert.ReferenceIdeal.RefValue

end
-- ==== Proof.RRun.lean ====
/-
  The reference program's run. Its @main is a straight line once the private activation function is unfolded at its two
  calls: the list below is the program's operations in order, the activation's fifteen per call (seven of its own — the
  zero, its broadcast and the comparison, twice, and a third zero —, the three of the first selection — the zero
  converted to its own type, broadcast, the select —, the exponential-minus-one, the one, its broadcast and the
  product, and the second selection), each over the buffers that call names. Every weakly fair execution terminates with
  the result buffer at the operations' composed term of the five arguments' launch contents, the arguments unchanged.
-/
import proofs.«106645_j47888885350878_2_alg».proof.Proof.RTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 80 operations, in order: @main's fifty, and at each of its two calls of the activation that
    function's fifteen (its callees' among them) over the call's own buffers. -/
abbrev ops : List (HloOp τ sig (Elt F)) :=
  [
    reshape main_arg0 main_v0 rfl shapeCasts_S8192x4096_S524288x64x1,
    unary main_v0 main_v1 ((transpose S524288x1x64 [0, 2, 1] · transposes_S524288x64x1_S524288x1x64_0_2_1) : (⟨S524288x64x1, .f32⟩ : BufTy).Contents (Elt F) → (⟨S524288x1x64, .f32⟩ : BufTy).Contents (Elt F)),
    reshape main_v1 main_v2 rfl shapeCasts_S524288x1x64_S8192x4096,
    unary main_arg1 main_v3 ((extractStridedSlice S1x64x64x128 ![0, 0, 0, 0] · slices_S2x64x64x128_S1x64x64x128_0_0_0_0) : (⟨S2x64x64x128, .f32⟩ : BufTy).Contents (Elt F) → (⟨S1x64x64x128, .f32⟩ : BufTy).Contents (Elt F)),
    reshape main_v3 main_v4 rfl shapeCasts_S1x64x64x128_S64x64x128,
    unary main_arg2 main_v5 ((extractStridedSlice S1x64x1x128 ![0, 0, 0, 0] · slices_S2x64x1x128_S1x64x1x128_0_0_0_0) : (⟨S2x64x1x128, .f32⟩ : BufTy).Contents (Elt F) → (⟨S1x64x1x128, .f32⟩ : BufTy).Contents (Elt F)),
    reshape main_v5 main_v6 rfl shapeCasts_S1x64x1x128_S64x1x128,
    unary main_arg3 main_v7 ((extractStridedSlice S1x64x128x64 ![0, 0, 0, 0] · slices_S2x64x128x64_S1x64x128x64_0_0_0_0) : (⟨S2x64x128x64, .f32⟩ : BufTy).Contents (Elt F) → (⟨S1x64x128x64, .f32⟩ : BufTy).Contents (Elt F)),
    reshape main_v7 main_v8 rfl shapeCasts_S1x64x128x64_S64x128x64,
    unary main_arg4 main_v9 ((extractStridedSlice S1x64x1x64 ![0, 0, 0, 0] · slices_S2x64x1x64_S1x64x1x64_0_0_0_0) : (⟨S2x64x1x64, .f32⟩ : BufTy).Contents (Elt F) → (⟨S1x64x1x64, .f32⟩ : BufTy).Contents (Elt F)),
    reshape main_v9 main_v10 rfl shapeCasts_S1x64x1x64_S64x1x64,
    reshape main_v2 main_v11 rfl shapeCasts_S8192x4096_S8192x64x64,
    unary main_v11 main_v12 ((transpose S64x8192x64 [1, 0, 2] · transposes_S8192x64x64_S64x8192x64_1_0_2) : (⟨S8192x64x64, .f32⟩ : BufTy).Contents (Elt F) → (⟨S64x8192x64, .f32⟩ : BufTy).Contents (Elt F)),
    binary main_v12 main_v4 main_v13 ((fun l r => Host.dotGeneral dot_S64x8192x64_S64x64x128_S64x8192x128_2_1_1_2_0_0 none l r) : (⟨S64x8192x64, .f32⟩ : BufTy).Contents (Elt F) → (⟨S64x64x128, .f32⟩ : BufTy).Contents (Elt F) → (⟨S64x8192x128, .f32⟩ : BufTy).Contents (Elt F)),
    unary main_v6 main_v14 (broadcastInDim S64x8192x128 ![0, 1, 2] bcast_S64x1x128_S64x8192x128_0_1_2 : (⟨S64x1x128, .f32⟩ : BufTy).Contents (Elt F) → (⟨S64x8192x128, .f32⟩ : BufTy).Contents (Elt F)),
    binary main_v13 main_v14 main_v15 (addf : (⟨S64x8192x128, .f32⟩ : BufTy).Contents (Elt F) → (⟨S64x8192x128, .f32⟩ : BufTy).Contents (Elt F) → (⟨S64x8192x128, .f32⟩ : BufTy).Contents (Elt F)),
    TRef.nullary main_call0.cst (constant S_ .f32 0x00000000#32),
    TRef.unary main_call0.cst main_call0.v0 (broadcastInDim S64x8192x128 ![] bcast_S_S64x8192x128),
    TRef.binary (.of main_v15) main_call0.v0 main_call0.v1 (cmpf .ogt),
    TRef.nullary main_call0.cst_0 (constant S_ .f32 0x00000000#32),
    TRef.unary main_call0.cst_0 main_call0.v2 (broadcastInDim S64x8192x128 ![] bcast_S_S64x8192x128),
    TRef.binary (.of main_v15) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S64x8192x128 ![] bcast_S_S64x8192x128),
    TRef.ternary main_call0.v3 main_call0.call0.v1 (.of main_v15) main_call0.call0.v2 select,
    TRef.unary main_call0.call0.v2 main_call0.v5 Host.expm1,
    TRef.nullary main_call0.cst_2 (constant S_ .f32 0x3F800000#32),
    TRef.unary main_call0.cst_2 main_call0.v6 (broadcastInDim S64x8192x128 ![] bcast_S_S64x8192x128),
    TRef.binary main_call0.v6 main_call0.v5 main_call0.v7 mulf,
    TRef.ternary main_call0.v1 (.of main_v15) main_call0.v7 main_call0.call1.v0 select,
    binary main_v16 main_v8 main_v17 ((fun l r => Host.dotGeneral dot_S64x8192x128_S64x128x64_S64x8192x64_2_1_1_2_0_0 none l r) : (⟨S64x8192x128, .f32⟩ : BufTy).Contents (Elt F) → (⟨S64x128x64, .f32⟩ : BufTy).Contents (Elt F) → (⟨S64x8192x64, .f32⟩ : BufTy).Contents (Elt F)),
    unary main_v10 main_v18 (broadcastInDim S64x8192x64 ![0, 1, 2] bcast_S64x1x64_S64x8192x64_0_1_2 : (⟨S64x1x64, .f32⟩ : BufTy).Contents (Elt F) → (⟨S64x8192x64, .f32⟩ : BufTy).Contents (Elt F)),
    binary main_v17 main_v18 main_v19 (addf : (⟨S64x8192x64, .f32⟩ : BufTy).Contents (Elt F) → (⟨S64x8192x64, .f32⟩ : BufTy).Contents (Elt F) → (⟨S64x8192x64, .f32⟩ : BufTy).Contents (Elt F)),
    binary main_v19 main_v12 main_v20 (addf : (⟨S64x8192x64, .f32⟩ : BufTy).Contents (Elt F) → (⟨S64x8192x64, .f32⟩ : BufTy).Contents (Elt F) → (⟨S64x8192x64, .f32⟩ : BufTy).Contents (Elt F)),
    unary main_v20 main_v21 ((transpose S8192x64x64 [1, 0, 2] · transposes_S64x8192x64_S8192x64x64_1_0_2) : (⟨S64x8192x64, .f32⟩ : BufTy).Contents (Elt F) → (⟨S8192x64x64, .f32⟩ : BufTy).Contents (Elt F)),
    reshape main_v21 main_v22 rfl shapeCasts_S8192x64x64_S8192x4096,
    reshape main_v22 main_v23 rfl shapeCasts_S8192x4096_S524288x1x64,
    unary main_v23 main_v24 ((transpose S524288x64x1 [0, 2, 1] · transposes_S524288x1x64_S524288x64x1_0_2_1) : (⟨S524288x1x64, .f32⟩ : BufTy).Contents (Elt F) → (⟨S524288x64x1, .f32⟩ : BufTy).Contents (Elt F)),
    reshape main_v24 main_v25 rfl shapeCasts_S524288x64x1_S8192x4096,
    reshape main_v25 main_v26 rfl shapeCasts_S8192x4096_S8192x64x64,
    unary main_v26 main_v27 ((transpose S8192x64x64 [0, 2, 1] · transposes_S8192x64x64_S8192x64x64_0_2_1) : (⟨S8192x64x64, .f32⟩ : BufTy).Contents (Elt F) → (⟨S8192x64x64, .f32⟩ : BufTy).Contents (Elt F)),
    reshape main_v27 main_v28 rfl shapeCasts_S8192x64x64_S8192x4096,
    unary main_arg1 main_v29 ((extractStridedSlice S1x64x64x128 ![1, 0, 0, 0] · slices_S2x64x64x128_S1x64x64x128_1_0_0_0) : (⟨S2x64x64x128, .f32⟩ : BufTy).Contents (Elt F) → (⟨S1x64x64x128, .f32⟩ : BufTy).Contents (Elt F)),
    reshape main_v29 main_v30 rfl shapeCasts_S1x64x64x128_S64x64x128,
    unary main_arg2 main_v31 ((extractStridedSlice S1x64x1x128 ![1, 0, 0, 0] · slices_S2x64x1x128_S1x64x1x128_1_0_0_0) : (⟨S2x64x1x128, .f32⟩ : BufTy).Contents (Elt F) → (⟨S1x64x1x128, .f32⟩ : BufTy).Contents (Elt F)),
    reshape main_v31 main_v32 rfl shapeCasts_S1x64x1x128_S64x1x128,
    unary main_arg3 main_v33 ((extractStridedSlice S1x64x128x64 ![1, 0, 0, 0] · slices_S2x64x128x64_S1x64x128x64_1_0_0_0) : (⟨S2x64x128x64, .f32⟩ : BufTy).Contents (Elt F) → (⟨S1x64x128x64, .f32⟩ : BufTy).Contents (Elt F)),
    reshape main_v33 main_v34 rfl shapeCasts_S1x64x128x64_S64x128x64,
    unary main_arg4 main_v35 ((extractStridedSlice S1x64x1x64 ![1, 0, 0, 0] · slices_S2x64x1x64_S1x64x1x64_1_0_0_0) : (⟨S2x64x1x64, .f32⟩ : BufTy).Contents (Elt F) → (⟨S1x64x1x64, .f32⟩ : BufTy).Contents (Elt F)),
    reshape main_v35 main_v36 rfl shapeCasts_S1x64x1x64_S64x1x64,
    reshape main_v28 main_v37 rfl shapeCasts_S8192x4096_S8192x64x64,
    unary main_v37 main_v38 ((transpose S64x8192x64 [1, 0, 2] · transposes_S8192x64x64_S64x8192x64_1_0_2) : (⟨S8192x64x64, .f32⟩ : BufTy).Contents (Elt F) → (⟨S64x8192x64, .f32⟩ : BufTy).Contents (Elt F)),
    binary main_v38 main_v30 main_v39 ((fun l r => Host.dotGeneral dot_S64x8192x64_S64x64x128_S64x8192x128_2_1_1_2_0_0 none l r) : (⟨S64x8192x64, .f32⟩ : BufTy).Contents (Elt F) → (⟨S64x64x128, .f32⟩ : BufTy).Contents (Elt F) → (⟨S64x8192x128, .f32⟩ : BufTy).Contents (Elt F)),
    unary main_v32 main_v40 (broadcastInDim S64x8192x128 ![0, 1, 2] bcast_S64x1x128_S64x8192x128_0_1_2 : (⟨S64x1x128, .f32⟩ : BufTy).Contents (Elt F) → (⟨S64x8192x128, .f32⟩ : BufTy).Contents (Elt F)),
    binary main_v39 main_v40 main_v41 (addf : (⟨S64x8192x128, .f32⟩ : BufTy).Contents (Elt F) → (⟨S64x8192x128, .f32⟩ : BufTy).Contents (Elt F) → (⟨S64x8192x128, .f32⟩ : BufTy).Contents (Elt F)),
    TRef.nullary main_call1.cst (constant S_ .f32 0x00000000#32),
    TRef.unary main_call1.cst main_call1.v0 (broadcastInDim S64x8192x128 ![] bcast_S_S64x8192x128),
    TRef.binary (.of main_v41) main_call1.v0 main_call1.v1 (cmpf .ogt),
    TRef.nullary main_call1.cst_0 (constant S_ .f32 0x00000000#32),
    TRef.unary main_call1.cst_0 main_call1.v2 (broadcastInDim S64x8192x128 ![] bcast_S_S64x8192x128),
    TRef.binary (.of main_v41) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S64x8192x128 ![] bcast_S_S64x8192x128),
    TRef.ternary main_call1.v3 main_call1.call0.v1 (.of main_v41) main_call1.call0.v2 select,
    TRef.unary main_call1.call0.v2 main_call1.v5 Host.expm1,
    TRef.nullary main_call1.cst_2 (constant S_ .f32 0x3F800000#32),
    TRef.unary main_call1.cst_2 main_call1.v6 (broadcastInDim S64x8192x128 ![] bcast_S_S64x8192x128),
    TRef.binary main_call1.v6 main_call1.v5 main_call1.v7 mulf,
    TRef.ternary main_call1.v1 (.of main_v41) main_call1.v7 main_call1.call1.v0 select,
    binary main_v42 main_v34 main_v43 ((fun l r => Host.dotGeneral dot_S64x8192x128_S64x128x64_S64x8192x64_2_1_1_2_0_0 none l r) : (⟨S64x8192x128, .f32⟩ : BufTy).Contents (Elt F) → (⟨S64x128x64, .f32⟩ : BufTy).Contents (Elt F) → (⟨S64x8192x64, .f32⟩ : BufTy).Contents (Elt F)),
    unary main_v36 main_v44 (broadcastInDim S64x8192x64 ![0, 1, 2] bcast_S64x1x64_S64x8192x64_0_1_2 : (⟨S64x1x64, .f32⟩ : BufTy).Contents (Elt F) → (⟨S64x8192x64, .f32⟩ : BufTy).Contents (Elt F)),
    binary main_v43 main_v44 main_v45 (addf : (⟨S64x8192x64, .f32⟩ : BufTy).Contents (Elt F) → (⟨S64x8192x64, .f32⟩ : BufTy).Contents (Elt F) → (⟨S64x8192x64, .f32⟩ : BufTy).Contents (Elt F)),
    binary main_v45 main_v38 main_v46 (addf : (⟨S64x8192x64, .f32⟩ : BufTy).Contents (Elt F) → (⟨S64x8192x64, .f32⟩ : BufTy).Contents (Elt F) → (⟨S64x8192x64, .f32⟩ : BufTy).Contents (Elt F)),
    unary main_v46 main_v47 ((transpose S8192x64x64 [1, 0, 2] · transposes_S64x8192x64_S8192x64x64_1_0_2) : (⟨S64x8192x64, .f32⟩ : BufTy).Contents (Elt F) → (⟨S8192x64x64, .f32⟩ : BufTy).Contents (Elt F)),
    reshape main_v47 main_v48 rfl shapeCasts_S8192x64x64_S8192x4096,
    reshape main_v48 main_v49 rfl shapeCasts_S8192x4096_S8192x64x64,
    unary main_v49 main_v50 ((transpose S8192x64x64 [0, 2, 1] · transposes_S8192x64x64_S8192x64x64_0_2_1) : (⟨S8192x64x64, .f32⟩ : BufTy).Contents (Elt F) → (⟨S8192x64x64, .f32⟩ : BufTy).Contents (Elt F)),
    reshape main_v50 main_v51 rfl shapeCasts_S8192x64x64_S8192x4096 ]

-- eighty steps in sequence: the comparison recurses once per statement
set_option maxRecDepth 8192 in
set_option maxHeartbeats 1000000 in
/-- @main is that straight line, by computation: the functions' definitions unfold at their calls, sequencing a
    call's steps before the rest reduces to one chain of steps, and both sides are the same chain. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    reshape_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., reshape_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., binary_bufs_sub .., binary_bufs_sub .., unary_bufs_sub ..,
    reshape_bufs_sub .., reshape_bufs_sub .., unary_bufs_sub .., reshape_bufs_sub .., reshape_bufs_sub .., unary_bufs_sub ..,
    reshape_bufs_sub .., unary_bufs_sub .., reshape_bufs_sub .., unary_bufs_sub .., reshape_bufs_sub .., unary_bufs_sub ..,
    reshape_bufs_sub .., unary_bufs_sub .., reshape_bufs_sub .., reshape_bufs_sub .., unary_bufs_sub .., binary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    unary_bufs_sub .., binary_bufs_sub .., binary_bufs_sub .., unary_bufs_sub .., reshape_bufs_sub .., reshape_bufs_sub ..,
    unary_bufs_sub .., reshape_bufs_sub ..⟩

-- the result's term is eighty operations deep: the rewriting and the comparison with the grouped term recurse once per level
set_option maxRecDepth 8192 in
set_option maxHeartbeats 2000000 in
/-- On every device, for any float values, from any memory with zero counters: every weakly fair execution of
    @main terminates with the result at the operations' composed term of the arguments — the grouped term
    `RefValue.refTerm`, whose definitions unfold to that composition — and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = RefValue.refTerm (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v51).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefRun

end
-- ==== Proof.RLayer.lean ====
/-
  One layer of the reference, read at one entry, at the ideal values (floats are the extended reals).

  The layer works on the blocks-first form `z[n, b, d]` (block `n`, row `b`, feature `d`). Entry `(n, b, d)` of its result is
      ((∑ e, elu (h e) · w2[n, e, d]) + b2[n, 0, d]) + z[n, b, d],   with   h e = (∑ k, z[n, b, k] · w1[n, k, e]) + b1[n, 0, e]:
  each of the two batched matrix products is, at an entry, the sum over the contracted coordinate of the products of the two
  members' entries (the block `n` is carried along, never summed); each bias is stored with a unit middle axis and so reads
  its one row, whatever `b` is; the activation acts entry by entry; and the residual adds the input's own entry. Only row `b`
  of `z` is read, so the result is the layer of the specification applied to that row's 64 × 64 matrix.
-/
import proofs.«106645_j47888885350878_2_alg».proof.Proof.RTerm
import proofs.«106645_j47888885350878_2_alg».proof.Proof.Spec
import Idealize.ShloMosaic.Lib.ValueIdx
import Idealize.ShloMosaic.Lib.Pipeline.Value
import Idealize.ShloMosaic.Lib.StackMember
import Idealize.ShloMosaic.PureOps.Ideal.Laws
noncomputable section
namespace Cert.ReferenceIdeal.RefLayer
open Cert.ReferenceIdeal Cert.ReferenceIdeal.Gen Idealize.ShloMosaic Idealize.ShloMosaic.ValueIdx

/-! ## The activation at an entry -/

/-- A scalar broadcast to the hidden shape reads that scalar at every entry: the operand has no axes, hence one entry. -/
theorem splat_apply (p : BitVec 32) (j : S64x8192x128.Idx) :
    RefValue.splat (F := Ideal) p j = Ideal.ofBits .f32 p := by
  unfold RefValue.splat
  exact broadcastInDim_apply _ _ _ j ix0 (fun a => a.elim0)

/-- The activation acts entry by entry, and at an entry `h` it is `elu h`: where `h > 0` the entry itself; elsewhere
    `1 · (exp h' − 1)` with `h'` the entry after the positive ones were replaced by zero — which on this branch is `h`
    itself, so the value is `exp h − 1`. -/
theorem eluT_apply (h : FVec Ideal S64x8192x128 .f32) (j : S64x8192x128.Idx) :
    RefValue.eluT (F := Ideal) h j = Cert.BlockMlp.elu (h j) := by
  unfold RefValue.eluT
  rw [select_apply, cmpf_apply, mulf_apply, splat_apply, splat_apply]
  show Scalar.select (Ideal.cmp .ogt (h j) (Ideal.ofBits .f32 0x00000000#32)) (h j)
      (Ideal.ofBits .f32 0x3F800000#32 *
        (Ideal.exp (Scalar.select (FloatOps.cmpf .ogt (h j) (RefValue.splat (F := Ideal) 0x00000000#32 j))
          (RefValue.splat (F := Ideal) 0x00000000#32 j) (h j)) - 1)) = _
  rw [splat_apply]
  exact Cert.BlockMlp.elu_of_expm1 (h j)

/-! ## The two matrix products at an entry -/

/-- The first product: block `n`'s row `b` of `z` against block `n`'s 64 × 128 matrix, at hidden feature `e`. -/
theorem dot1_apply (z : FVec Ideal S64x8192x64 .f32) (w1 : FVec Ideal S64x64x128 .f32) (n : Fin 64) (b : Fin 8192) (e : Fin 128) :
    Host.dotGeneral (F := Ideal) dot_S64x8192x64_S64x64x128_S64x8192x128_2_1_1_2_0_0 none z w1 (ix3 n b e)
      = ∑ k : Fin 64, z (ix3 n b k) * w1 (ix3 n k e) :=
  StackMember.dotGeneral_stack_apply (G := 64) (m := 8192) (n := 128) (k := 64)
    dot_S64x8192x64_S64x64x128_S64x8192x128_2_1_1_2_0_0_wf none z w1 n b e

/-- The second product: block `n`'s row `b` of the hidden activations against block `n`'s 128 × 64 matrix, at feature `d`. -/
theorem dot2_apply (a : FVec Ideal S64x8192x128 .f32) (w2 : FVec Ideal S64x128x64 .f32) (n : Fin 64) (b : Fin 8192) (d : Fin 64) :
    Host.dotGeneral (F := Ideal) dot_S64x8192x128_S64x128x64_S64x8192x64_2_1_1_2_0_0 none a w2 (ix3 n b d)
      = ∑ e : Fin 128, a (ix3 n b e) * w2 (ix3 n e d) :=
  StackMember.dotGeneral_stack_apply (G := 64) (m := 8192) (n := 64) (k := 128)
    dot_S64x8192x128_S64x128x64_S64x8192x64_2_1_1_2_0_0_wf none a w2 n b d

/-! ## The biases at an entry -/

/-- The first bias has one row per block; broadcast along the rows it reads that row for every `b`. -/
theorem bias1_apply (b1 : FVec Ideal S64x1x128 .f32) (n : Fin 64) (b : Fin 8192) (e : Fin 128) :
    broadcastInDim S64x8192x128 ![0, 1, 2] bcast_S64x1x128_S64x8192x128_0_1_2 b1 (ix3 n b e) = b1 (ix3 n 0 e) :=
  broadcastInDim_apply _ _ b1 (ix3 n b e) (ix3 n 0 e) (fun a => match a with
    | ⟨0, _⟩ => by show n.val = if (64 : Nat) = 1 then 0 else n.val; rw [if_neg (by decide)]
    | ⟨1, _⟩ => by show (0 : Nat) = if (1 : Nat) = 1 then 0 else b.val; rw [if_pos rfl]
    | ⟨2, _⟩ => by show e.val = if (128 : Nat) = 1 then 0 else e.val; rw [if_neg (by decide)])

/-- Likewise the second bias. -/
theorem bias2_apply (b2 : FVec Ideal S64x1x64 .f32) (n : Fin 64) (b : Fin 8192) (d : Fin 64) :
    broadcastInDim S64x8192x64 ![0, 1, 2] bcast_S64x1x64_S64x8192x64_0_1_2 b2 (ix3 n b d) = b2 (ix3 n 0 d) :=
  broadcastInDim_apply _ _ b2 (ix3 n b d) (ix3 n 0 d) (fun a => match a with
    | ⟨0, _⟩ => by show n.val = if (64 : Nat) = 1 then 0 else n.val; rw [if_neg (by decide)]
    | ⟨1, _⟩ => by show (0 : Nat) = if (1 : Nat) = 1 then 0 else b.val; rw [if_pos rfl]
    | ⟨2, _⟩ => by show d.val = if (64 : Nat) = 1 then 0 else d.val; rw [if_neg (by decide)])

/-! ## The layer at an entry -/

/-- Entry `(n, b, d)` of the layer's result is the specification's layer, with block `n`'s weights, applied to row `b` of
    the input read as a 64 × 64 matrix, at `(n, d)`: the outer sum runs over the 128 hidden features, the inner over the
    block's 64 input features, and the residual is the input's own entry. -/
theorem rLayer_apply (z : FVec Ideal S64x8192x64 .f32) (w1 : FVec Ideal S64x64x128 .f32) (b1 : FVec Ideal S64x1x128 .f32)
    (w2 : FVec Ideal S64x128x64 .f32) (b2 : FVec Ideal S64x1x64 .f32) (n : Fin 64) (b : Fin 8192) (d : Fin 64) :
    RefValue.rLayer (F := Ideal) z w1 b1 w2 b2 (ix3 n b d)
      = Cert.BlockMlp.layer (fun n k e => w1 (ix3 n k e)) (fun n e => b1 (ix3 n 0 e)) (fun n e d => w2 (ix3 n e d))
          (fun n d => b2 (ix3 n 0 d)) (fun n d => z (ix3 n b d)) n d := by
  unfold RefValue.rLayer Cert.BlockMlp.layer
  rw [addf_apply, addf_apply, dot2_apply, bias2_apply]
  refine congrArg (fun s => s + b2 (ix3 n 0 d) + z (ix3 n b d)) ?_
  refine Finset.sum_congr rfl fun e _ => ?_
  rw [eluT_apply, addf_apply, dot1_apply, bias1_apply]

end Cert.ReferenceIdeal.RefLayer
-- ==== Proof.RRead.lean ====
/-
  The reference's re-arrangements read at an index, and its result as the specification.

  Every re-arrangement of the reference is a chain of shape casts (which keep an entry's row-major position), transpositions
  (which exchange coordinates) and slices (which shift a coordinate by an offset); read at one index of the result, each
  names ONE index of its operand. With those readings and the reading of one layer at an index (a hypothesis here), the
  reference's result at row b, column j is the specification's: layer 1 of the transposed layer 0 of the row.
-/
import proofs.«106645_j47888885350878_2_alg».proof.Proof.RTerm
import proofs.«106645_j47888885350878_2_alg».proof.Proof.Spec
import Idealize.ShloMosaic.Lib.ValueIdx
import Idealize.ShloMosaic.Lib.Pipeline.Value

noncomputable section

namespace Cert.ReferenceIdeal.RefRead

open Cert.ReferenceIdeal Cert.ReferenceIdeal.Gen Idealize.ShloMosaic Idealize.ShloMosaic.ValueIdx
open Cert.BlockMlp (col)

/-- What the other module proves of one layer (taken here as a hypothesis). -/
def LayerReads : Prop :=
  ∀ (z : FVec Ideal S64x8192x64 .f32) (w1 : FVec Ideal S64x64x128 .f32) (b1 : FVec Ideal S64x1x128 .f32)
    (w2 : FVec Ideal S64x128x64 .f32) (b2 : FVec Ideal S64x1x64 .f32) (n : Fin 64) (b : Fin 8192) (d : Fin 64),
    RefValue.rLayer (F := Ideal) z w1 b1 w2 b2 (ix3 n b d)
      = Cert.BlockMlp.layer (fun n k e => w1 (ix3 n k e)) (fun n e => b1 (ix3 n 0 e)) (fun n e d => w2 (ix3 n e d))
          (fun n d => b2 (ix3 n 0 d)) (fun n d => z (ix3 n b d)) n d

/-! ## Rows as 64 blocks of 64

Column j of a row of 4096 is feature j mod 64 of block j / 64; a shape cast between [8192, 4096] and [8192, 64, 64]
keeps the row-major position 4096·b + 64·n + d, so it reads row b, column 64·n + d at (b, n, d) and back. -/

/-- Every column is feature j mod 64 of block j / 64. -/
theorem col_div_mod (j : Fin 4096) :
    col (⟨j.val / 64, by omega⟩ : Fin 64) (⟨j.val % 64, by omega⟩ : Fin 64) = j :=
  Fin.ext (by show 64 * (j.val / 64) + j.val % 64 = j.val; omega)

/-- Blocks first: entry (n, b, d) is row b's feature d of block n. The transposition exchanges the row axis and the block
    axis of the row cut into blocks. -/
theorem toBlocks_apply (y : FVec Ideal S8192x4096 .f32) (n : Fin 64) (b : Fin 8192) (d : Fin 64) :
    RefValue.toBlocks (F := Ideal) y (ix3 n b d) = y (ix2 b (col n d)) := by
  unfold RefValue.toBlocks
  refine (transpose_apply _ _ _ (ix3 n b d) (ix3 b n d)
    (fun a => match a with | ⟨0, _⟩ => rfl | ⟨1, _⟩ => rfl | ⟨2, _⟩ => rfl)).trans ?_
  refine shapeCast_apply _ _ (ix3 b n d) (ix2 b (col n d)) ?_
  rw [Shape.rowMajor_val_two, Shape.rowMajor_val_three]
  show b.val * 4096 + (64 * n.val + d.val) = (b.val * 64 + n.val) * 64 + d.val
  omega

/-- And back: column 64·n + d of row b is entry (n, b, d) of the blocks-first form. -/
theorem fromBlocks_col (z : FVec Ideal S64x8192x64 .f32) (n : Fin 64) (b : Fin 8192) (d : Fin 64) :
    RefValue.fromBlocks (F := Ideal) z (ix2 b (col n d)) = z (ix3 n b d) := by
  unfold RefValue.fromBlocks
  refine (shapeCast_apply _ _ (ix2 b (col n d)) (ix3 b n d) ?_).trans ?_
  · rw [Shape.rowMajor_val_two, Shape.rowMajor_val_three]
    show (b.val * 64 + n.val) * 64 + d.val = b.val * 4096 + (64 * n.val + d.val)
    omega
  exact transpose_apply _ _ _ (ix3 b n d) (ix3 n b d)
    (fun a => match a with | ⟨0, _⟩ => rfl | ⟨1, _⟩ => rfl | ⟨2, _⟩ => rfl)

/-- The shuffle between the layers: each row read as a 64 × 64 matrix and transposed, so column 64·n + d reads column
    64·d + n. -/
theorem shuffle64_col (y : FVec Ideal S8192x4096 .f32) (b : Fin 8192) (n d : Fin 64) :
    RefValue.shuffle64 (F := Ideal) y (ix2 b (col n d)) = y (ix2 b (col d n)) := by
  unfold RefValue.shuffle64
  refine (shapeCast_apply _ _ (ix2 b (col n d)) (ix3 b n d) ?_).trans ?_
  · rw [Shape.rowMajor_val_two, Shape.rowMajor_val_three]
    show (b.val * 64 + n.val) * 64 + d.val = b.val * 4096 + (64 * n.val + d.val)
    omega
  refine (transpose_apply _ _ _ (ix3 b n d) (ix3 b d n)
    (fun a => match a with | ⟨0, _⟩ => rfl | ⟨1, _⟩ => rfl | ⟨2, _⟩ => rfl)).trans ?_
  refine shapeCast_apply _ _ (ix3 b d n) (ix2 b (col d n)) ?_
  rw [Shape.rowMajor_val_two, Shape.rowMajor_val_three]
  show b.val * 4096 + (64 * d.val + n.val) = (b.val * 64 + d.val) * 64 + n.val
  omega

/-! ## The first layer's shuffle moves nothing

The array is viewed as 524288 rows of 64 with a further axis of extent ONE, and that unit axis is exchanged with the
64-axis. Position 4096·b + j is row 64·b + j / 64, column j mod 64 of that view, the unit axis at 0; exchanging an axis of
extent one with its neighbour changes no row-major position, so the entry read is the entry itself. -/

theorem shuffle1_apply (y : FVec Ideal S8192x4096 .f32) (b : Fin 8192) (j : Fin 4096) :
    RefValue.shuffle1 (F := Ideal) y (ix2 b j) = y (ix2 b j) := by
  have hb := b.isLt
  have hj := j.isLt
  unfold RefValue.shuffle1
  refine (shapeCast_apply _ _ (ix2 b j)
    (ix3 (⟨64 * b.val + j.val / 64, by omega⟩ : Fin 524288) (0 : Fin 1) (⟨j.val % 64, by omega⟩ : Fin 64)) ?_).trans ?_
  · rw [Shape.rowMajor_val_two, Shape.rowMajor_val_three]
    show ((64 * b.val + j.val / 64) * 1 + 0) * 64 + j.val % 64 = b.val * 4096 + j.val
    omega
  refine (transpose_apply _ _ _ _
    (ix3 (⟨64 * b.val + j.val / 64, by omega⟩ : Fin 524288) (⟨j.val % 64, by omega⟩ : Fin 64) (0 : Fin 1))
    (fun a => match a with | ⟨0, _⟩ => rfl | ⟨1, _⟩ => rfl | ⟨2, _⟩ => rfl)).trans ?_
  refine shapeCast_apply _ _ _ (ix2 b j) ?_
  rw [Shape.rowMajor_val_two, Shape.rowMajor_val_three]
  show b.val * 4096 + j.val = ((64 * b.val + j.val / 64) * 64 + j.val % 64) * 1 + 0
  omega

theorem unshuffle1_apply (y : FVec Ideal S8192x4096 .f32) (b : Fin 8192) (j : Fin 4096) :
    RefValue.unshuffle1 (F := Ideal) y (ix2 b j) = y (ix2 b j) := by
  have hb := b.isLt
  have hj := j.isLt
  unfold RefValue.unshuffle1
  refine (shapeCast_apply _ _ (ix2 b j)
    (ix3 (⟨64 * b.val + j.val / 64, by omega⟩ : Fin 524288) (⟨j.val % 64, by omega⟩ : Fin 64) (0 : Fin 1)) ?_).trans ?_
  · rw [Shape.rowMajor_val_two, Shape.rowMajor_val_three]
    show ((64 * b.val + j.val / 64) * 64 + j.val % 64) * 1 + 0 = b.val * 4096 + j.val
    omega
  refine (transpose_apply _ _ _ _
    (ix3 (⟨64 * b.val + j.val / 64, by omega⟩ : Fin 524288) (0 : Fin 1) (⟨j.val % 64, by omega⟩ : Fin 64))
    (fun a => match a with | ⟨0, _⟩ => rfl | ⟨1, _⟩ => rfl | ⟨2, _⟩ => rfl)).trans ?_
  refine shapeCast_apply _ _ _ (ix2 b j) ?_
  rw [Shape.rowMajor_val_two, Shape.rowMajor_val_three]
  show b.val * 4096 + j.val = ((64 * b.val + j.val / 64) * 1 + 0) * 64 + j.val % 64
  omega

/-! ## The layers' weights

Slab l of a weight array along its leading axis, that axis dropped: the slice shifts the leading coordinate by l and
keeps the others, and dropping an axis of extent one changes no row-major position; so entry (n, ·, ·) of layer l's
weights is entry (l, n, ·, ·) of the argument array. -/

theorem w1L0_apply (w : FVec Ideal S2x64x64x128 .f32) (n : Fin 64) (k : Fin 64) (e : Fin 128) :
    RefValue.w1L0 (F := Ideal) w (ix3 n k e) = w (ix4 (0 : Fin 2) n k e) := by
  unfold RefValue.w1L0
  refine (shapeCast_apply _ _ (ix3 n k e) (ix4 (0 : Fin 1) n k e) ?_).trans ?_
  · rw [Shape.rowMajor_val_three, Shape.rowMajor_val_four]
    show ((0 * 64 + n.val) * 64 + k.val) * 128 + e.val = (n.val * 64 + k.val) * 128 + e.val
    omega
  exact extractStridedSlice_apply _ _ _ (ix4 (0 : Fin 1) n k e) (ix4 (0 : Fin 2) n k e)
    (fun a => match a with
      | ⟨0, _⟩ => by show 0 = 0 + 0; omega
      | ⟨1, _⟩ => by show n.val = 0 + n.val; omega
      | ⟨2, _⟩ => by show k.val = 0 + k.val; omega
      | ⟨3, _⟩ => by show e.val = 0 + e.val; omega)

theorem b1L0_apply (w : FVec Ideal S2x64x1x128 .f32) (n : Fin 64) (e : Fin 128) :
    RefValue.b1L0 (F := Ideal) w (ix3 n (0 : Fin 1) e) = w (ix4 (0 : Fin 2) n (0 : Fin 1) e) := by
  unfold RefValue.b1L0
  refine (shapeCast_apply _ _ (ix3 n (0 : Fin 1) e) (ix4 (0 : Fin 1) n (0 : Fin 1) e) ?_).trans ?_
  · rw [Shape.rowMajor_val_three, Shape.rowMajor_val_four]
    show ((0 * 64 + n.val) * 1 + 0) * 128 + e.val = (n.val * 1 + 0) * 128 + e.val
    omega
  exact extractStridedSlice_apply _ _ _ (ix4 (0 : Fin 1) n (0 : Fin 1) e) (ix4 (0 : Fin 2) n (0 : Fin 1) e)
    (fun a => match a with
      | ⟨0, _⟩ => by show 0 = 0 + 0; omega
      | ⟨1, _⟩ => by show n.val = 0 + n.val; omega
      | ⟨2, _⟩ => by show 0 = 0 + 0; omega
      | ⟨3, _⟩ => by show e.val = 0 + e.val; omega)

theorem w2L0_apply (w : FVec Ideal S2x64x128x64 .f32) (n : Fin 64) (e : Fin 128) (d : Fin 64) :
    RefValue.w2L0 (F := Ideal) w (ix3 n e d) = w (ix4 (0 : Fin 2) n e d) := by
  unfold RefValue.w2L0
  refine (shapeCast_apply _ _ (ix3 n e d) (ix4 (0 : Fin 1) n e d) ?_).trans ?_
  · rw [Shape.rowMajor_val_three, Shape.rowMajor_val_four]
    show ((0 * 64 + n.val) * 128 + e.val) * 64 + d.val = (n.val * 128 + e.val) * 64 + d.val
    omega
  exact extractStridedSlice_apply _ _ _ (ix4 (0 : Fin 1) n e d) (ix4 (0 : Fin 2) n e d)
    (fun a => match a with
      | ⟨0, _⟩ => by show 0 = 0 + 0; omega
      | ⟨1, _⟩ => by show n.val = 0 + n.val; omega
      | ⟨2, _⟩ => by show e.val = 0 + e.val; omega
      | ⟨3, _⟩ => by show d.val = 0 + d.val; omega)

theorem b2L0_apply (w : FVec Ideal S2x64x1x64 .f32) (n : Fin 64) (d : Fin 64) :
    RefValue.b2L0 (F := Ideal) w (ix3 n (0 : Fin 1) d) = w (ix4 (0 : Fin 2) n (0 : Fin 1) d) := by
  unfold RefValue.b2L0
  refine (shapeCast_apply _ _ (ix3 n (0 : Fin 1) d) (ix4 (0 : Fin 1) n (0 : Fin 1) d) ?_).trans ?_
  · rw [Shape.rowMajor_val_three, Shape.rowMajor_val_four]
    show ((0 * 64 + n.val) * 1 + 0) * 64 + d.val = (n.val * 1 + 0) * 64 + d.val
    omega
  exact extractStridedSlice_apply _ _ _ (ix4 (0 : Fin 1) n (0 : Fin 1) d) (ix4 (0 : Fin 2) n (0 : Fin 1) d)
    (fun a => match a with
      | ⟨0, _⟩ => by show 0 = 0 + 0; omega
      | ⟨1, _⟩ => by show n.val = 0 + n.val; omega
      | ⟨2, _⟩ => by show 0 = 0 + 0; omega
      | ⟨3, _⟩ => by show d.val = 0 + d.val; omega)

theorem w1L1_apply (w : FVec Ideal S2x64x64x128 .f32) (n : Fin 64) (k : Fin 64) (e : Fin 128) :
    RefValue.w1L1 (F := Ideal) w (ix3 n k e) = w (ix4 (1 : Fin 2) n k e) := by
  unfold RefValue.w1L1
  refine (shapeCast_apply _ _ (ix3 n k e) (ix4 (0 : Fin 1) n k e) ?_).trans ?_
  · rw [Shape.rowMajor_val_three, Shape.rowMajor_val_four]
    show ((0 * 64 + n.val) * 64 + k.val) * 128 + e.val = (n.val * 64 + k.val) * 128 + e.val
    omega
  exact extractStridedSlice_apply _ _ _ (ix4 (0 : Fin 1) n k e) (ix4 (1 : Fin 2) n k e)
    (fun a => match a with
      | ⟨0, _⟩ => by show 1 = 1 + 0; omega
      | ⟨1, _⟩ => by show n.val = 0 + n.val; omega
      | ⟨2, _⟩ => by show k.val = 0 + k.val; omega
      | ⟨3, _⟩ => by show e.val = 0 + e.val; omega)

theorem b1L1_apply (w : FVec Ideal S2x64x1x128 .f32) (n : Fin 64) (e : Fin 128) :
    RefValue.b1L1 (F := Ideal) w (ix3 n (0 : Fin 1) e) = w (ix4 (1 : Fin 2) n (0 : Fin 1) e) := by
  unfold RefValue.b1L1
  refine (shapeCast_apply _ _ (ix3 n (0 : Fin 1) e) (ix4 (0 : Fin 1) n (0 : Fin 1) e) ?_).trans ?_
  · rw [Shape.rowMajor_val_three, Shape.rowMajor_val_four]
    show ((0 * 64 + n.val) * 1 + 0) * 128 + e.val = (n.val * 1 + 0) * 128 + e.val
    omega
  exact extractStridedSlice_apply _ _ _ (ix4 (0 : Fin 1) n (0 : Fin 1) e) (ix4 (1 : Fin 2) n (0 : Fin 1) e)
    (fun a => match a with
      | ⟨0, _⟩ => by show 1 = 1 + 0; omega
      | ⟨1, _⟩ => by show n.val = 0 + n.val; omega
      | ⟨2, _⟩ => by show 0 = 0 + 0; omega
      | ⟨3, _⟩ => by show e.val = 0 + e.val; omega)

theorem w2L1_apply (w : FVec Ideal S2x64x128x64 .f32) (n : Fin 64) (e : Fin 128) (d : Fin 64) :
    RefValue.w2L1 (F := Ideal) w (ix3 n e d) = w (ix4 (1 : Fin 2) n e d) := by
  unfold RefValue.w2L1
  refine (shapeCast_apply _ _ (ix3 n e d) (ix4 (0 : Fin 1) n e d) ?_).trans ?_
  · rw [Shape.rowMajor_val_three, Shape.rowMajor_val_four]
    show ((0 * 64 + n.val) * 128 + e.val) * 64 + d.val = (n.val * 128 + e.val) * 64 + d.val
    omega
  exact extractStridedSlice_apply _ _ _ (ix4 (0 : Fin 1) n e d) (ix4 (1 : Fin 2) n e d)
    (fun a => match a with
      | ⟨0, _⟩ => by show 1 = 1 + 0; omega
      | ⟨1, _⟩ => by show n.val = 0 + n.val; omega
      | ⟨2, _⟩ => by show e.val = 0 + e.val; omega
      | ⟨3, _⟩ => by show d.val = 0 + d.val; omega)

theorem b2L1_apply (w : FVec Ideal S2x64x1x64 .f32) (n : Fin 64) (d : Fin 64) :
    RefValue.b2L1 (F := Ideal) w (ix3 n (0 : Fin 1) d) = w (ix4 (1 : Fin 2) n (0 : Fin 1) d) := by
  unfold RefValue.b2L1
  refine (shapeCast_apply _ _ (ix3 n (0 : Fin 1) d) (ix4 (0 : Fin 1) n (0 : Fin 1) d) ?_).trans ?_
  · rw [Shape.rowMajor_val_three, Shape.rowMajor_val_four]
    show ((0 * 64 + n.val) * 1 + 0) * 64 + d.val = (n.val * 1 + 0) * 64 + d.val
    omega
  exact extractStridedSlice_apply _ _ _ (ix4 (0 : Fin 1) n (0 : Fin 1) d) (ix4 (1 : Fin 2) n (0 : Fin 1) d)
    (fun a => match a with
      | ⟨0, _⟩ => by show 1 = 1 + 0; omega
      | ⟨1, _⟩ => by show n.val = 0 + n.val; omega
      | ⟨2, _⟩ => by show 0 = 0 + 0; omega
      | ⟨3, _⟩ => by show d.val = 0 + d.val; omega)

/-! ## The reference's result is the specification

Read at row b, column j, outermost operation first. The closing shuffle and the return from blocks read layer 1's output at
block j mod 64, feature j / 64. Layer 1's input at (n1, b, d1) is the blocks-first form of the shuffled row, column
64·n1 + d1, which the shuffle reads at column 64·d1 + n1 of layer 0's output put back into rows, that is layer 0's output
at block d1, feature n1: the transposition between the layers. Layer 0's input at (n, b, d) is the argument's row b,
column 64·n + d, the first shuffle moving nothing. -/

/-- The closing shuffle of the row put back from blocks: column j reads block j mod 64, feature j / 64. -/
theorem shuffle64_fromBlocks_apply (z : FVec Ideal S64x8192x64 .f32) (b : Fin 8192) (j : Fin 4096) :
    RefValue.shuffle64 (F := Ideal) (RefValue.fromBlocks (F := Ideal) z) (ix2 b j)
      = z (ix3 (⟨j.val % 64, by omega⟩ : Fin 64) b (⟨j.val / 64, by omega⟩ : Fin 64)) := by
  refine (congrArg (fun t => RefValue.shuffle64 (F := Ideal) (RefValue.fromBlocks (F := Ideal) z) (ix2 b t))
    (col_div_mod j).symm).trans ?_
  show RefValue.shuffle64 (F := Ideal) (RefValue.fromBlocks (F := Ideal) z)
      (ix2 b (col (⟨j.val / 64, by omega⟩ : Fin 64) (⟨j.val % 64, by omega⟩ : Fin 64))) = _
  rw [shuffle64_col, fromBlocks_col]

/-- Between the layers: layer 1's input at block n1, feature d1 is layer 0's output at block d1, feature n1. -/
theorem between_apply (z : FVec Ideal S64x8192x64 .f32) (n1 : Fin 64) (b : Fin 8192) (d1 : Fin 64) :
    RefValue.toBlocks (F := Ideal) (RefValue.shuffle64 (F := Ideal) (RefValue.unshuffle1 (F := Ideal)
      (RefValue.fromBlocks (F := Ideal) z))) (ix3 n1 b d1) = z (ix3 d1 b n1) := by
  rw [toBlocks_apply, shuffle64_col, unshuffle1_apply, fromBlocks_col]

/-- Layer 0's input at block n, feature d is the argument's row b, column 64·n + d. -/
theorem first_apply (x : FVec Ideal S8192x4096 .f32) (n : Fin 64) (b : Fin 8192) (d : Fin 64) :
    RefValue.toBlocks (F := Ideal) (RefValue.shuffle1 (F := Ideal) x) (ix3 n b d) = x (ix2 b (col n d)) := by
  rw [toBlocks_apply, shuffle1_apply]

theorem refTerm_eq_G (hL : LayerReads) (x : FVec Ideal S8192x4096 .f32) (w1 : FVec Ideal S2x64x64x128 .f32) (b1 : FVec Ideal S2x64x1x128 .f32)
    (w2 : FVec Ideal S2x64x128x64 .f32) (b2 : FVec Ideal S2x64x1x64 .f32) :
    RefValue.refTerm (F := Ideal) x w1 b1 w2 b2 = Cert.BlockMlp.G x w1 b1 w2 b2 := by
  unfold LayerReads at hL
  funext i
  obtain ⟨b, j, rfl⟩ : ∃ (b : Fin 8192) (j : Fin 4096), i = ix2 b j := ⟨i 0, i 1, eq_ix2 i⟩
  rw [Cert.BlockMlp.G_ix2]
  unfold RefValue.refTerm Cert.BlockMlp.Grow Cert.BlockMlp.layerOf
  -- the result at (b, j) is layer 1's output at block j mod 64, feature j / 64
  rw [shuffle64_fromBlocks_apply, hL]
  -- layer 1's weights are slab 1 of the arguments; its input is layer 0's output transposed
  simp only [w1L1_apply, b1L1_apply, w2L1_apply, b2L1_apply, between_apply, hL,
    w1L0_apply, b1L0_apply, w2L0_apply, b2L0_apply, first_apply]

end Cert.ReferenceIdeal.RefRead

end
-- ==== Proof.lean ====
/-
  The certificate: a fused two-layer block residual MLP (8192 rows of 4096 features; per layer 64 blocks, each with its own
  64 → 128 → 64 perceptron, ELU between, a residual sum after; the blocks re-cut by a transposition between the layers)
  against its array-level reference, equal as extended reals entry by entry.

  The mathematics (Proof/Spec.lean): rows do not interact; a row is a 64 × 64 matrix; each layer acts on it block by block;
  between the layers the matrix is transposed and at the end transposed back. Both programs compute that function `G` of
  the five argument arrays:
  · the kernel (Proof/KLayer.lean, KTile.lean, KValue.lean) tile by tile — 64 grid points of 128 rows each, one layer
    written once and used twice, its matrix products into a zero accumulator plain sums at the ideal values, the roundings to
    sixteen bits the identity there, the activation spelt `exp (min h 0) − 1` below zero; the tiles cover the rows;
  · the reference (Proof/RTerm.lean, RRun.lean, RLayer.lean, RRead.lean) on whole arrays — its program run as the list of
    its operations (the activation's function inlined at its two calls), the re-arrangements read entry by entry, the
    activation spelt `1 · expm1` of the non-positive part, which is the same `elu`.
  No law used needs finiteness (sums are only re-indexed, never distributed over), so the precondition is not opened.
  The three frame claims are the generated frame runs (the reference's: its run with the result dropped); the
  idealization rewrote no operation, so `preserves` is `True`.
-/
import proofs.«106645_j47888885350878_2_alg».proof.Defs
import proofs.«106645_j47888885350878_2_alg».proof.Proof.Gen.Kernel
import proofs.«106645_j47888885350878_2_alg».proof.Proof.Gen.Kernel.Skeleton
import proofs.«106645_j47888885350878_2_alg».proof.Proof.Gen.Kernel.Launch
import proofs.«106645_j47888885350878_2_alg».proof.Proof.Gen.Kernel.Points
import proofs.«106645_j47888885350878_2_alg».proof.Proof.Gen.Kernel.Frame
import proofs.«106645_j47888885350878_2_alg».proof.Proof.Gen.KernelIdeal
import proofs.«106645_j47888885350878_2_alg».proof.Proof.Gen.KernelIdeal.Skeleton
import proofs.«106645_j47888885350878_2_alg».proof.Proof.Gen.KernelIdeal.Launch
import proofs.«106645_j47888885350878_2_alg».proof.Proof.Gen.KernelIdeal.Points
import proofs.«106645_j47888885350878_2_alg».proof.Proof.Gen.KernelIdeal.Frame
import proofs.«106645_j47888885350878_2_alg».proof.Proof.Gen.KernelIdeal.Value
import proofs.«106645_j47888885350878_2_alg».proof.Proof.Gen.ReferenceIdeal
import proofs.«106645_j47888885350878_2_alg».proof.Proof.Gen.Pre_finite_inputs
import proofs.«106645_j47888885350878_2_alg».proof.Proof.KValue
import proofs.«106645_j47888885350878_2_alg».proof.Proof.RRun
import proofs.«106645_j47888885350878_2_alg».proof.Proof.RLayer
import proofs.«106645_j47888885350878_2_alg».proof.Proof.RRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end at the specification `G` of the argument arrays: the kernel's tile by tile, the reference's by its
    operations' composed term read entry by entry; the two memories agree on the arguments. -/
theorem algebraic : Cert.algebraic_KernelIdeal_ReferenceIdeal := by
  intro m ρ m' ρ' _ hagree
  refine ⟨fun c => Cert.KernelIdeal.KValue.Gm m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.refTerm_eq_G Cert.ReferenceIdeal.RefLayer.rLayer_apply,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
